-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x128 : Shape := ⟨2, ![256, 128]⟩
abbrev S8192x16384 : Shape := ⟨2, ![8192, 16384]⟩
abbrev S8192 : Shape := ⟨1, ![8192]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S8192 : S_.BroadcastsInDim S8192 (![] : Fin 0 → Fin S8192.rank)
  reducesTo_S8192_S_d0 : S8192.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S16384x256 .f32) (main_arg1 : FVec F S256x128 .f32) (main_arg2 : FVec F S8192x16384 .f32) (main_arg3 : FVec F S8192 .f32) (main_arg4 : FVec F S16384 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_v13 main_v16
-- ==== Kernel.lean ====
abbrev S16384x256 : Shape := ⟨2, ![16384, 256]⟩
abbrev S256x128 : Shape := ⟨2, ![256, 128]⟩
abbrev S8192x16384 : Shape := ⟨2, ![8192, 16384]⟩
abbrev S8192 : Shape := ⟨1, ![8192]⟩
abbrev S16384 : Shape := ⟨1, ![16384]⟩
abbrev S16384x128 : Shape := ⟨2, ![16384, 128]⟩
abbrev S2048x256 : Shape := ⟨2, ![2048, 256]⟩
abbrev S2048x128 : Shape := ⟨2, ![2048, 128]⟩
abbrev S8192x1 : Shape := ⟨2, ![8192, 1]⟩
abbrev S16384x1 : Shape := ⟨2, ![16384, 1]⟩
abbrev S8192x128 : Shape := ⟨2, ![8192, 128]⟩
abbrev S2048x2048 : Shape := ⟨2, ![2048, 2048]⟩
abbrev S2048x1 : Shape := ⟨2, ![2048, 1]⟩

abbrev nBuf : Space → Nat
  | .hbm => 10
  | .vmem => 21
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S8192x16384, .f32⟩
  | .hbm, ⟨3, _⟩ => ⟨S8192, .f32⟩
  | .hbm, ⟨4, _⟩ => ⟨S16384, .f32⟩
  | .hbm, ⟨5, _⟩ => ⟨S16384x128, .f32⟩
  | .hbm, ⟨6, _⟩ => ⟨S8192x1, .f32⟩
  | .hbm, ⟨7, _⟩ => ⟨S16384x1, .f32⟩
  | .hbm, ⟨8, _⟩ => ⟨S8192x128, .f32⟩
  | .hbm, ⟨9, _⟩ => ⟨S16384x128, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | .local _ .vmem, ⟨5, _⟩ => ⟨S2048x2048, .f32⟩
  | .local _ .vmem, ⟨6, _⟩ => ⟨S2048x2048, .f32⟩
  | .local _ .vmem, ⟨7, _⟩ => ⟨S2048x128, .f32⟩
  | .local _ .vmem, ⟨8, _⟩ => ⟨S2048x128, .f32⟩
  | .local _ .vmem, ⟨9, _⟩ => ⟨S8192x1, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x2048, .f32⟩
  | .local _ .vmem, ⟨14, _⟩ => ⟨S2048x2048, .f32⟩
  | .local _ .vmem, ⟨15, _⟩ => ⟨S2048x128, .f32⟩
  | .local _ .vmem, ⟨16, _⟩ => ⟨S2048x128, .f32⟩
  | .local _ .vmem, ⟨17, _⟩ => ⟨S16384x1, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def k1_mult1 (i : grid1.Coords) : BitVec 32 :=
  let arg0 : BitVec 32 := BitVec.ofNat 32 (i 0).val
  let c2048_i32 : BitVec 32 := 2048#32
  let v17 : BitVec 32 := Scalar.muli arg0 c2048_i32
  v17
def k1_off1 (i : grid1.Coords) : Fin 2 → Nat :=
  let arg0 : BitVec 32 := BitVec.ofNat 32 (i 0).val
  let c2048_i32 : BitVec 32 := 2048#32
  let v17 : BitVec 32 := Scalar.muli arg0 c2048_i32
  let v18 : BitVec 32 := v17
  let v19 : Index := Scalar.indexCast v18
  let c0_9 : Index := 0#32
  ![v19.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def k2_mult1 (i : grid2.Coords) : BitVec 32 :=
  let arg0 : BitVec 32 := BitVec.ofNat 32 (i 0).val
  let c2048_i32 : BitVec 32 := 2048#32
  let v17 : BitVec 32 := Scalar.muli arg0 c2048_i32
  v17
def k2_off1 (i : grid2.Coords) : Fin 2 → Nat :=
  let arg0 : BitVec 32 := BitVec.ofNat 32 (i 0).val
  let c2048_i32 : BitVec 32 := 2048#32
  let v17 : BitVec 32 := Scalar.muli arg0 c2048_i32
  let v18 : BitVec 32 := v17
  let v19 : Index := Scalar.indexCast v18
  let c0_9 : Index := 0#32
  ![v19.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S16384x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  shapeCasts_S8192_S8192x1 : S8192.ShapeCasts S8192x1
  shapeCasts_S16384_S16384x1 : S16384.ShapeCasts S16384x1
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  h_S2048x1 : 0 < S2048x1.numel
  shapeCasts_S2048x1_S2048x1 : S2048x1.ShapeCasts S2048x1
  broadcasts_S2048x1_S2048x128 : S2048x1.Broadcasts S2048x128
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  dot_S2048x2048_S2048x128_S2048x128_0_0_1_1_n_n_wf : DotDims.WF S2048x2048 S2048x128 S2048x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  k1_mult1_dvd : ∀ i : grid1.Coords, ∀ (k1_h2 : k1_cond2 i = 1#1), 2048 ∣ (k1_mult1 i).toNat
  k1_off1_inb : ∀ i : grid1.Coords, ∀ (k1_h2 : k1_cond2 i = 1#1), ∀ a, (k1_off1 i) a + S2048x1.size a ≤ S8192x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x16384.size a
  hwx1_0 : ∀ i : grid1.Coords, EltTy.bits .f32 = 32 ∨ (Rect.block (s := S8192x16384) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x1.size a ≤ S8192x1.size a
  hwx1_2 : ∀ i : grid1.Coords, EltTy.bits .f32 = 32 ∨ (Rect.block (s := S8192x1) S8192x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  k2_mult1_dvd : ∀ i : grid2.Coords, ∀ (k2_h2 : k2_cond2 i = 1#1), 2048 ∣ (k2_mult1 i).toNat
  k2_off1_inb : ∀ i : grid2.Coords, ∀ (k2_h2 : k2_cond2 i = 1#1), ∀ a, (k2_off1 i) a + S2048x1.size a ≤ S16384x1.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x16384.size a
  hwx2_0 : ∀ i : grid2.Coords, EltTy.bits .f32 = 32 ∨ (Rect.block (s := S8192x16384) S2048x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16384x1.size a ≤ S16384x1.size a
  hwx2_2 : ∀ i : grid2.Coords, EltTy.bits .f32 = 32 ∨ (Rect.block (s := S16384x1) S16384x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S16384x128.size a
  hwx2_3 : ∀ i : grid2.Coords, EltTy.bits .f32 = 32 ∨ (Rect.block (s := S16384x128) S2048x128.size (cc2_transform_3 i) (hinb2_3 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x2048_S2048x128_S2048x128_0_0_1_1_n_n : DotDims S2048x2048 S2048x128 S2048x128 where
  lhsContracting := [0]
  rhsContracting := [0]
  lhsNonContracting := [1]
  rhsNonContracting := [1]
  lhsBatch := []
  rhsBatch := []
  wf := dot_S2048x2048_S2048x128_S2048x128_0_0_1_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S16384x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16384x256 : Shape := ⟨2, ![16384, 256]⟩
abbrev S256x128 : Shape := ⟨2, ![256, 128]⟩
abbrev S8192x16384 : Shape := ⟨2, ![8192, 16384]⟩
abbrev S8192 : Shape := ⟨1, ![8192]⟩
abbrev S16384 : Shape := ⟨1, ![16384]⟩
abbrev S16384x128 : Shape := ⟨2, ![16384, 128]⟩
abbrev S8192x128 : Shape := ⟨2, ![8192, 128]⟩
abbrev S8192x1 : Shape := ⟨2, ![8192, 1]⟩
abbrev S16384x8192 : Shape := ⟨2, ![16384, 8192]⟩
abbrev S16384x1 : Shape := ⟨2, ![16384, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x128, .f32⟩
  | .hbm, ⟨2, _⟩ => ⟨S8192x16384, .f32⟩
  | .hbm, ⟨3, _⟩ => ⟨S8192, .f32⟩
  | .hbm, ⟨4, _⟩ => ⟨S16384, .f32⟩
  | .hbm, ⟨5, _⟩ => ⟨S16384x128, .f32⟩
  | .hbm, ⟨6, _⟩ => ⟨S8192x128, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S16384x8192, .f32⟩
  | .hbm, ⟨11, _⟩ => ⟨S16384x128, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x128, .f32⟩
  | .hbm, ⟨17, _⟩ => ⟨S16384x128, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x16384_S16384x8192_1_0 : S8192x16384.Transposes [1, 0] S16384x8192
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S16384x256_S256x128_S16384x128_1_0_0_1_n_n_wf : DotDims.WF S16384x256 S256x128 S16384x128 [1] [0] [0] [1] [] []
  dot_S8192x16384_S16384x128_S8192x128_1_0_0_1_n_n_wf : DotDims.WF S8192x16384 S16384x128 S8192x128 [1] [0] [0] [1] [] []
  dot_S16384x8192_S8192x128_S16384x128_1_0_0_1_n_n_wf : DotDims.WF S16384x8192 S8192x128 S16384x128 [1] [0] [0] [1] [] []

variable [Facts₀]

def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def dot_S16384x8192_S8192x128_S16384x128_1_0_0_1_n_n : DotDims S16384x8192 S8192x128 S16384x128 where
  lhsContracting := [1]
  rhsContracting := [0]
  lhsNonContracting := [0]
  rhsNonContracting := [1]
  lhsBatch := []
  rhsBatch := []
  wf := dot_S16384x8192_S8192x128_S16384x128_1_0_0_1_n_n_wf

class Facts : Prop extends Facts₀ where

variable [Facts]
-- ==== Proof.K.Defs.lean ====
/-
  The three kernel regions' contents, stated once: the block each window shows the body at a grid point, the
  matrix product region 0 leaves per row tile, and, for the two accumulating regions, what the accumulator holds
  after each point (a running sum over the tiles of the contracted axis, restarted where a new output block begins)
  and what the output block holds where it is written (the diagonal's rows times the finished accumulator).
  Everything is a function of the contents `V` the region finds in the buffers when it is entered.
-/
import proofs.«149786_j41644002902021_2_alg».proof.Proof.Gen.Kernel.Launch
import proofs.«149786_j41644002902021_2_alg».proof.Proof.Gen.Kernel.Skeleton
import proofs.«149786_j41644002902021_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: one row tile of the projection per point -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block at point `t`: the row tile times the whole weight matrix. -/
def out0 (c : Dev nD) (t : Fin cfg0.N) : Vec F S2048x128 .f32 := k0_pay1 (iblk0 V c 0 t) (iblk0 V c 1 t)

/-! ## Region 1: an accumulation over 8 tiles -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator is reset at the points whose inner coordinate is 0, -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- and the output block is written at the points whose inner coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The rectangle of the diagonal's rows read at a point that writes its output block. -/
abbrev rd1 (i : grid1.Coords) (h : cond1_1 i) : Rect S8192x1 :=
  Rect.unit (s := S8192x1) (k1_off1 i) S2048x1.size (k1_off1_inb i h)

/-- What the accumulator holds after the point at position `n`: this point's product added to what the point
    before left, or to zero where the accumulation starts. -/
def acc1 (c : Dev nD) : (n : ℕ) → n < cfg1.N → Vec F S2048x128 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 8 = 0 then k1_pay1 (F := F) else acc1 c n (Nat.lt_of_succ_lt h))

theorem acc1_eq (c : Dev nD) (t : Fin cfg1.N) :
    acc1 V c t.val t.isLt = k1_pay2 (iblk1 V c 0 t) (iblk1 V c 1 t)
      (if t.val % 8 = 0 then k1_pay1 (F := F) else acc1 V c (t.val - 1) (Nat.lt_of_le_of_lt (Nat.sub_le _ _) t.isLt)) := by
  obtain ⟨n, hn⟩ := t
  cases n with
  | zero => rfl
  | succ n => rfl

/-- What the output window's buffer holds after a point that writes it: the diagonal's rows times the accumulator
    (elsewhere the buffer is not stored into, and this value is not consulted). -/
def out1 (c : Dev nD) (t : Fin cfg1.N) : Vec F S2048x128 .f32 :=
  if h : cond1_1 (grid1.coords t) then
    k1_pay3 (View.ld (iblk1 V c 2 t) (rd1 (grid1.coords t) h)) (acc1 V c t.val t.isLt)
  else k1_pay1 (F := F)

theorem out1_eq (c : Dev nD) (t : Fin cfg1.N) (h : cond1_1 (grid1.coords t)) :
    out1 V c t = k1_pay3 (View.ld (iblk1 V c 2 t) (rd1 (grid1.coords t) h)) (acc1 V c t.val t.isLt) := dif_pos h

/-- The input windows are never idle; the output window is idle exactly where the body does not store into it, and there it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, and the scratch accumulator. -/
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev scM1 : Memref sig .tc .vmem S2048x128 .f32 := Memref.whole cc1_scratch0

/-! ## Region 2: an accumulation over 4 tiles -/

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator is reset at the points whose inner coordinate is 0, -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- and the output block is written at the points whose inner coordinate is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The rectangle of the diagonal's rows read at a point that writes its output block. -/
abbrev rd2 (i : grid2.Coords) (h : cond2_1 i) : Rect S16384x1 :=
  Rect.unit (s := S16384x1) (k2_off1 i) S2048x1.size (k2_off1_inb i h)

/-- What the accumulator holds after the point at position `n`: this point's product added to what the point
    before left, or to zero where the accumulation starts. -/
def acc2 (c : Dev nD) : (n : ℕ) → n < cfg2.N → Vec F S2048x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩)
      (if (n + 1) % 4 = 0 then k2_pay1 (F := F) else acc2 c n (Nat.lt_of_succ_lt h))

theorem acc2_eq (c : Dev nD) (t : Fin cfg2.N) :
    acc2 V c t.val t.isLt = k2_pay2 (iblk2 V c 0 t) (iblk2 V c 1 t)
      (if t.val % 4 = 0 then k2_pay1 (F := F) else acc2 V c (t.val - 1) (Nat.lt_of_le_of_lt (Nat.sub_le _ _) t.isLt)) := by
  obtain ⟨n, hn⟩ := t
  cases n with
  | zero => rfl
  | succ n => rfl

/-- What the output window's buffer holds after a point that writes it: the diagonal's rows times the accumulator
    (elsewhere the buffer is not stored into, and this value is not consulted). -/
def out2 (c : Dev nD) (t : Fin cfg2.N) : Vec F S2048x128 .f32 :=
  if h : cond2_1 (grid2.coords t) then
    k2_pay3 (View.ld (iblk2 V c 2 t) (rd2 (grid2.coords t) h)) (acc2 V c t.val t.isLt)
  else k2_pay1 (F := F)

theorem out2_eq (c : Dev nD) (t : Fin cfg2.N) (h : cond2_1 (grid2.coords t)) :
    out2 V c t = k2_pay3 (View.ld (iblk2 V c 2 t) (rd2 (grid2.coords t) h)) (acc2 V c t.val t.isLt) := dif_pos h

/-- The input windows are never idle; the output window is idle exactly where the body does not store into it, and there it is not written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- Each window's current staging memref at point `t`, and the scratch accumulator. -/
abbrev ms2_0 (t : Fin cfg2.N) : Memref sig .tc .vmem S2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16384x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
abbrev scM2 : Memref sig .tc .vmem S2048x128 .f32 := Memref.whole cc2_scratch0

end Cert.Kernel.H

end
-- ==== Proof.K.Reg0.lean ====
/-
  Region 0, the projection: at each of its 8 points the body reads a 2048-row tile of x and the whole weight
  matrix and stores their product into the output block. Its proof data, at the contents `V` the region finds:
  the inputs' buffers hold their blocks at every point (the weight matrix is fetched once and stays), the output's
  holds the tile's product; nothing is carried from point to point.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

theorem hz2 : (![0, 0] : Fin 2 → Nat) = fun _ => 0 := by
  funext a; match a with | ⟨0, _⟩ => rfl | ⟨1, _⟩ => rfl

set_option maxHeartbeats 1000000 in
/-- The body on whole staging memrefs: the inputs' at read contents, the output's at anything; it leaves the inputs' as
    they were and the output's at the product. -/
theorem sound_kernel0 (c : Dev nD) (E : Set ℕ) (i : grid0.Coords) (arg1 : Memref sig .tc .vmem S2048x256 .f32) (harg1 : arg1.IsWhole)
    (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (View.cover_of_tiled _ S2048x128.size (by rfl))).trans ?_
  rw [View.canon_unit_zero hz2]
  simp only [View.readAt_eq_ld, View.ld_unit_zero (S := S2048x256) hz2, View.ld_unit_zero (S := S256x128) hz2]

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.Run.lean ====
/-
  The whole program as four segments — region 0, the two reshapes of the diagonals, region 1, region 2 — run from
  the launch memory: what every unscoped buffer holds at each boundary (a fold: a region changes only its output
  array, to what its pipeline's write-backs leave; the reshapes write their two results), and the run itself, which
  ends with every unscoped buffer at the last boundary's contents. The proof data of the two accumulating regions
  enter as parameters with the few facts the launch needs of them.
-/
import proofs.«149786_j41644002902021_2_alg».proof.Proof.K.Reg0

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The contents a region finds, per core and TensorCore reference. -/
abbrev VT (F : FTy → Type) : Type := (c : Dev nD) → (b : Ref sig .tc) → Buf (Elt F) ((c : Thread nD τ).loc b)

/-- What the launch needs of region 1's proof data, whatever contents `V` it is stated at. -/
structure Ok1 (D1 : VT F → (c : Dev nD) → Dat τ (Elt F) Unit ℕ (UR sig nD τ) ℕ cfg1 c) : Prop where
  hA : ∀ (V : VT F) (c : Dev nD) (w : Fin cfg1.W), (D1 V c).A w = V c (Pipeline.arrRef spec1 w)
  hq : ∀ (V : VT F) (c : Dev nD) (w : Fin cfg1.W), (D1 V c).q w = fullShare
  ho : ∀ (V : VT F) (c : Dev nD) (t : Fin (cfg1.N + 1)), (D1 V c).owed t = 0
  hr : ∀ (V : VT F) (c : Dev nD) (t : Fin (cfg1.N + 1)), (D1 V c).recorded t = Set.univ
  hb : ∀ (V : VT F) (c : Dev nD), BodyObligation (D1 V c) (defs₀ (F := F)) Variants.none () Set.univ
  hi : ∀ (V : VT F) (c : Dev nD), (Pipeline.ΦA spec1 c : sProp 𝕄) ⊢ (D1 V c).Φ 0
  hu : ∀ (V : VT F) (c : Dev nD), (D1 V c).Φ (Fin.last cfg1.N) ⊢ (Pipeline.ΦA spec1 c : sProp 𝕄)
/-- The same of region 2's. -/
structure Ok2 (D2 : VT F → (c : Dev nD) → Dat τ (Elt F) Unit ℕ (UR sig nD τ) ℕ cfg2 c) : Prop where
  hA : ∀ (V : VT F) (c : Dev nD) (w : Fin cfg2.W), (D2 V c).A w = V c (Pipeline.arrRef spec2 w)
  hq : ∀ (V : VT F) (c : Dev nD) (w : Fin cfg2.W), (D2 V c).q w = fullShare
  ho : ∀ (V : VT F) (c : Dev nD) (t : Fin (cfg2.N + 1)), (D2 V c).owed t = 0
  hr : ∀ (V : VT F) (c : Dev nD) (t : Fin (cfg2.N + 1)), (D2 V c).recorded t = Set.univ
  hb : ∀ (V : VT F) (c : Dev nD), BodyObligation (D2 V c) (defs₀ (F := F)) Variants.none () Set.univ
  hi : ∀ (V : VT F) (c : Dev nD), (Pipeline.ΦA spec2 c : sProp 𝕄) ⊢ (D2 V c).Φ 0
  hu : ∀ (V : VT F) (c : Dev nD), (D2 V c).Φ (Fin.last cfg2.N) ⊢ (Pipeline.ΦA spec2 c : sProp 𝕄)

variable (m : (ℓ : Loc nD τ sig) → Buf (Elt F) ℓ)
variable (D1 : VT F → (c : Dev nD) → Dat τ (Elt F) Unit ℕ (UR sig nD τ) ℕ cfg1 c)
variable (D2 : VT F → (c : Dev nD) → Dat τ (Elt F) Unit ℕ (UR sig nD τ) ℕ cfg2 c)

/-! ## The buffers' contents at each boundary -/

/-- At launch (region 0's entry). -/
abbrev W0 : Dev nD → Valuation τ sig (Elt F) := fun c b => m (c, b)
abbrev V0 : VT F := fun c b => W0 m c b
/-- After region 0: its output array at what the write-backs leave. -/
def W1 (c : Dev nD) : Valuation τ sig (Elt F) :=
  Pipeline.withArrays spec0 c (W0 m c) fun w => (dat0 (V0 m) c).arrAt w cfg0.N
abbrev V1 : VT F := fun c b => W1 m c b
/-- After the two reshapes (region 1's entry). -/
abbrev W2 : Dev nD → Valuation τ sig (Elt F) := fun c => StableHlo.after hostOps1 (W1 m c)
abbrev V2 : VT F := fun c b => W2 m c b
/-- After region 1 (region 2's entry). -/
def W3 (c : Dev nD) : Valuation τ sig (Elt F) :=
  Pipeline.withArrays spec1 c (W2 m c) fun w => (D1 (V2 m) c).arrAt w cfg1.N
abbrev V3 : VT F := fun c b => W3 m D1 c b
/-- After region 2: the end. -/
def W4 (c : Dev nD) : Valuation τ sig (Elt F) :=
  Pipeline.withArrays spec2 c (W3 m D1 c) fun w => (D2 (V3 m D1) c).arrAt w cfg2.N
abbrev V4 : VT F := fun c b => W4 m D1 D2 c b

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m D1 c (Proc.devRef .tc (Pipeline.arrRef spec1 w)) = (D1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m D1 c (Proc.devRef .tc b) = W2 m c (Proc.devRef .tc b) := by
  unfold W3; exact Pipeline.withArrays_of_ne spec1 c _ _ b hb
theorem W4_arr (c : Dev nD) (w : Fin cfg2.W) :
    W4 m D1 D2 c (Proc.devRef .tc (Pipeline.arrRef spec2 w)) = (D2 (V3 m D1) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m D1 D2 c (Proc.devRef .tc b) = W3 m D1 c (Proc.devRef .tc b) := by
  unfold W4; exact Pipeline.withArrays_of_ne spec2 c _ _ b hb

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => D1 (V2 m) c
  | ⟨2, _⟩ => fun c => D2 (V3 m D1) c

theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (D1 (V2 m) c).arrAt w cfg1.N = V3 m D1 c (Pipeline.arrRef spec1 w) :=
  (W3_arr m D1 c w).symm
theorem hrest1 (c : Dev nD) : ∀ b, b ∉ Finset.univ.image (Pipeline.arrRef spec1) → V3 m D1 c b = V2 m c b :=
  fun b hb => W3_of_ne m D1 c b fun w e => hb (Finset.mem_image.mpr ⟨w, Finset.mem_univ _, e⟩)
theorem hF2 (c : Dev nD) (w : Fin cfg2.W) : (D2 (V3 m D1) c).arrAt w cfg2.N = V4 m D1 D2 c (Pipeline.arrRef spec2 w) :=
  (W4_arr m D1 D2 c w).symm
theorem hrest2 (c : Dev nD) : ∀ b, b ∉ Finset.univ.image (Pipeline.arrRef spec2) → V4 m D1 D2 c b = V3 m D1 c b :=
  fun b hb => W4_of_ne m D1 D2 c b fun w e => hb (Finset.mem_image.mpr ⟨w, Finset.mem_univ _, e⟩)

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m D1 D2 c) ∗ ∃ r, prngReg c r)

/-! ## What the launch needs of the two accumulating regions' proof data -/

theorem hostOps1_fresh : (hostOps1 : List (HloOp τ sig (Elt F))).Forall fun op => op.fresh = ∅ := by
  simp only [List.Forall]; repeat' constructor

variable (h1 : Ok1 D1) (h2 : Ok2 D2)

/-! ## The regions as segments -/

set_option backward.isDefEq.respectTransparency.types false in
/-- Region 0 over the thread state: entered from every unscoped buffer at the boundary's contents, left at the next
    boundary's. Its arrays are split out of the unscoped buffers and put back at what the pipeline leaves; the generator
    register goes into the region's invariant and comes back; nothing is owed; the kernel has no semaphore of its own. -/
def reg0 : Pipeline.RegionSeg (pcfgs (F := F)) adm (pdats m D1 D2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun c t => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m D1 D2) launch0.win launch0.arr_whole c
      ((pdats m D1 D2 0 c).share_full fun w => rfl) (V0 m c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (trivial)
      rw [show (pdats m D1 D2 0 c).owed 0 = 0 from rfl]
      iexact HO
    isplitl [Hp]; · iexact Hp
    iexact Hrest
  hin c := by
    rw [show (pdats m D1 D2 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m D1 D2 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D1 D2) ((pdats m D1 D2 0 c).share_full fun w => rfl)
      (V0 m c) (V1 m c) ((pdats m D1 D2 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D1 D2 0 c).owed (Fin.last _) = 0 from rfl]
    iexact HO

include h1

set_option backward.isDefEq.respectTransparency.types false in
/-- Region 1 over the thread state: entered from every unscoped buffer at the boundary's contents, left at the next
    boundary's. Its arrays are split out of the unscoped buffers and put back at what the pipeline leaves; the generator
    register goes into the region's invariant and comes back; nothing is owed; the kernel has no semaphore of its own. -/
def reg1 : Pipeline.RegionSeg (pcfgs (F := F)) adm (pdats m D1 D2) () defs₀ 𝒱₀ L lv 1 where
  win := launch1.win.to₀
  block_pos := launch1.block_pos
  stage_whole := launch1.stage_whole
  K := PEmpty
  osem k := k.elim
  ho := Pipeline.OwnSemFacts.none _
  hbody c := (h1.hb (V2 m) c).loose
  hwaits := Pipeline.hwaits_of_owed_zero _ _ _ _ L lv 1 fun c t => h1.ho (V2 m) c t
  pre c := iprop(StableHlo.held (c : Thread nD τ) (Pipeline.ucRefs τ sig) (W2 m c) ∗ R c)
  post c := iprop(StableHlo.held (c : Thread nD τ) (Pipeline.ucRefs τ sig) (W3 m D1 c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m D1 D2) launch1.win launch1.arr_whole c
      ((pdats m D1 D2 1 c).share_full fun w => h1.hq (V2 m) c w) (V2 m c) fun w => h1.hA (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((h1.hr (V2 m) c 0) ▸ Set.mem_univ _)
      rw [show (pdats m D1 D2 1 c).owed 0 = 0 from h1.ho (V2 m) c 0]
      iexact HO
    isplitl [Hp]; · iexact Hp
    iexact Hrest
  hin c := by
    refine BI.Entails.trans (?_ : _ ⊢ (Pipeline.ΦA spec1 c : sProp 𝕄)) (h1.hi (V2 m) c)
    unfold Pipeline.ΦA
    iintro ⟨Hp, -, Hr⟩
    isplitl [Hr]; · iexact Hr
    iexact Hp
  hout c := by
    rw [Pipeline.ownSems0_none]
    refine BI.Entails.trans (h1.hu (V2 m) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D1 D2) ((pdats m D1 D2 1 c).share_full fun w => h1.hq (V2 m) c w)
      (V2 m c) (V3 m D1 c) ((pdats m D1 D2 1 c).arrAt · cfg1.N) (hF1 m D1 c) (hrest1 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D1 D2 1 c).owed (Fin.last _) = 0 from h1.ho (V2 m) c (Fin.last _)]
    iexact HO

include h2

set_option backward.isDefEq.respectTransparency.types false in
/-- Region 2 over the thread state: entered from every unscoped buffer at the boundary's contents, left at the next
    boundary's. Its arrays are split out of the unscoped buffers and put back at what the pipeline leaves; the generator
    register goes into the region's invariant and comes back; nothing is owed; the kernel has no semaphore of its own. -/
def reg2 : Pipeline.RegionSeg (pcfgs (F := F)) adm (pdats m D1 D2) () defs₀ 𝒱₀ L lv 2 where
  win := launch2.win.to₀
  block_pos := launch2.block_pos
  stage_whole := launch2.stage_whole
  K := PEmpty
  osem k := k.elim
  ho := Pipeline.OwnSemFacts.none _
  hbody c := (h2.hb (V3 m D1) c).loose
  hwaits := Pipeline.hwaits_of_owed_zero _ _ _ _ L lv 2 fun c t => h2.ho (V3 m D1) c t
  pre c := iprop(StableHlo.held (c : Thread nD τ) (Pipeline.ucRefs τ sig) (W3 m D1 c) ∗ R c)
  post c := iprop(Tₙ m D1 D2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m D1 c)
  hentry c := by
    rw [Pipeline.ownSems0_none]
    have hsplit := Pipeline.arrays_of_unscopedBufs (p := 2) (pcfgs (F := F)) adm (pdats m D1 D2) launch2.win launch2.arr_whole c
      ((pdats m D1 D2 2 c).share_full fun w => h2.hq (V3 m D1) c w) (V3 m D1 c) fun w => h2.hA (V3 m D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((h2.hr (V3 m D1) c 0) ▸ Set.mem_univ _)
      rw [show (pdats m D1 D2 2 c).owed 0 = 0 from h2.ho (V3 m D1) c 0]
      iexact HO
    isplitl [Hp]; · iexact Hp
    iexact Hrest
  hin c := by
    refine BI.Entails.trans (?_ : _ ⊢ (Pipeline.ΦA spec2 c : sProp 𝕄)) (h2.hi (V3 m D1) c)
    unfold Pipeline.ΦA
    iintro ⟨Hp, -, Hr⟩
    isplitl [Hr]; · iexact Hr
    iexact Hp
  hout c := by
    rw [Pipeline.ownSems0_none]
    refine BI.Entails.trans (h2.hu (V3 m D1) c) (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D1 D2) ((pdats m D1 D2 2 c).share_full fun w => h2.hq (V3 m D1) c w)
      (V3 m D1 c) (V4 m D1 D2 c) ((pdats m D1 D2 2 c).arrAt · cfg2.N) (hF2 m D1 D2 c) (hrest2 m D1 D2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m D1 D2 2 c).owed (Fin.last _) = 0 from h2.ho (V3 m D1) c (Fin.last _)]
    iexact HO

/-! ## The program as its segments, and the run -/

/-- The four segments in order. -/
abbrev segs : List (Pipeline.Seg (pcfgs (F := F)) adm (pdats m D1 D2) () defs₀ 𝒱₀ L lv) :=
  [ .region (reg0 m D1 D2),
    .host (hseg hostOps1 hostOps1_sub hostOps1_fresh (W1 m)),
    .region (reg1 m D1 D2 h1),
    .region (reg2 m D1 D2 h2) ]

/-- The program is the run of the segments. -/
theorem main_run (c : Dev nD) : main (F := F) c = Pipeline.Seg.run (segs m D1 D2 h1 h2) :=
  (main_chain c).trans (by chain_rfl)

set_option backward.isDefEq.respectTransparency.types false in
/-- THE RUN: from any memory with zero counters every weakly fair execution of the program terminates, nothing
    faulting, and the final memory holds every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m D1 D2 c b) :=
  Pipeline.θ_run_regions_kit (pcfgs (F := F)) adm (pdats m D1 D2) () cellOf_inj emb₁ defs₀ 𝒱₀ L lv m ρ main
    (segs m D1 D2 h1 h2)
    (fun c Q => by rw [main_run m D1 D2 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D1 D2)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m D1 D2 c b)
    (hfin := fun c s' => by
      iintro ⟨⟨Hh, -⟩, HSI⟩
      unfold StableHlo.held
      imodintro
      iapply (pointsTo_read_all (Pipeline.ucRefs τ sig) (fun b => (((c : Thread nD τ)).1, b)) (W4 m D1 D2 c) s')
      isplitl [Hh] <;> iassumption)
    (hQ := fun s h c => h c)

end Cert.Kernel.H

end
-- ==== Proof.K.Fold.lean ====
/-
  The boundary contents read back. No segment writes an argument array, so at the end each argument's buffer holds
  what it held at the launch; the result buffer holds what region 2's write-backs leave; and the buffers the
  regions read in between are named: the projection left by region 0, the two diagonals as one-column matrices (the
  reshapes' results), the product left by region 1.
-/
import proofs.«149786_j41644002902021_2_alg».proof.Proof.K.Run

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)
variable (D1 : VT F → (c : Dev nD) → Dat τ (Elt F) Unit ℕ (UR sig nD τ) ℕ cfg1 c)
variable (D2 : VT F → (c : Dev nD) → Dat τ (Elt F) Unit ℕ (UR sig nD τ) ℕ cfg2 c)

/-- The references the two reshapes write. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩
/-- A buffer the reshapes do not write is as region 0 left it. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-! ## The reshapes' results and the projection, at region 1's entry -/

theorem W2_v0 (c : Dev nD) : W2 m c (Proc.devRef .tc main_v0) = (dat0 (V0 m) c).arrAt 2 cfg0.N :=
  (W2_of m c main_v0 (by decide)).trans (W1_arr m c 2)
theorem W2_v1 (c : Dev nD) : W2 m c (Proc.devRef .tc main_v1)
    = shapeCast S8192x1 (m ((c : Thread nD τ).loc main_arg3)) shapeCasts_S8192_S8192x1 := by
  show StableHlo.after hostOps1 (W1 m c) (Proc.devRef .tc main_v1) = _
  after_results
  rw [W1_of_ne m c main_arg3 (by decide)]
  rfl
theorem W2_v2 (c : Dev nD) : W2 m c (Proc.devRef .tc main_v2)
    = shapeCast S16384x1 (m ((c : Thread nD τ).loc main_arg4)) shapeCasts_S16384_S16384x1 := by
  show StableHlo.after hostOps1 (W1 m c) (Proc.devRef .tc main_v2) = _
  after_results
  rw [W1_of_ne m c main_arg4 (by decide)]
  rfl
theorem W2_arg2 (c : Dev nD) : W2 m c (Proc.devRef .tc main_arg2) = m ((c : Thread nD τ).loc main_arg2) :=
  (W2_of m c main_arg2 (by decide)).trans ((W1_of_ne m c main_arg2 (by decide)).trans rfl)

variable (h1 : Ok1 D1) (h2 : Ok2 D2)

/-! ## At region 2's entry -/

theorem W3_v3 (c : Dev nD) : W3 m D1 c (Proc.devRef .tc main_v3) = (D1 (V2 m) c).arrAt 3 cfg1.N := W3_arr m D1 c 3
theorem W3_v2 (c : Dev nD) : W3 m D1 c (Proc.devRef .tc main_v2)
    = shapeCast S16384x1 (m ((c : Thread nD τ).loc main_arg4)) shapeCasts_S16384_S16384x1 :=
  (W3_of_ne m D1 c main_v2 (by decide)).trans (W2_v2 m c)
include h1 in
theorem W3_arg2 (c : Dev nD) : W3 m D1 c (Proc.devRef .tc main_arg2) = m ((c : Thread nD τ).loc main_arg2) :=
  (W3_arr m D1 c 0).trans (((D1 (V2 m) c).arrAt_in 0 rfl _).trans ((h1.hA (V2 m) c 0).trans (W2_arg2 m c)))

/-! ## At the end -/

theorem W4_v4 (c : Dev nD) : W4 m D1 D2 c (Proc.devRef .tc main_v4) = (D2 (V3 m D1) c).arrAt 3 cfg2.N := W4_arr m D1 D2 c 3
theorem W4_arg0 (c : Dev nD) : W4 m D1 D2 c (Proc.devRef .tc main_arg0) = m ((c : Thread nD τ).loc main_arg0) :=
  (W4_of_ne m D1 D2 c main_arg0 (by decide)).trans <| (W3_of_ne m D1 c main_arg0 (by decide)).trans <| (W2_of m c main_arg0 (by decide)).trans <|
    (W1_arr m c 0).trans (((dat0 (V0 m) c).arrAt_in 0 rfl _).trans (A_eq0 (V0 m) c 0))
theorem W4_arg1 (c : Dev nD) : W4 m D1 D2 c (Proc.devRef .tc main_arg1) = m ((c : Thread nD τ).loc main_arg1) :=
  (W4_of_ne m D1 D2 c main_arg1 (by decide)).trans <| (W3_of_ne m D1 c main_arg1 (by decide)).trans <| (W2_of m c main_arg1 (by decide)).trans <|
    (W1_arr m c 1).trans (((dat0 (V0 m) c).arrAt_in 1 rfl _).trans (A_eq0 (V0 m) c 1))
include h1 h2 in
theorem W4_arg2 (c : Dev nD) : W4 m D1 D2 c (Proc.devRef .tc main_arg2) = m ((c : Thread nD τ).loc main_arg2) :=
  (W4_arr m D1 D2 c 0).trans (((D2 (V3 m D1) c).arrAt_in 0 rfl _).trans ((h2.hA (V3 m D1) c 0).trans (W3_arg2 m D1 h1 c)))
theorem W4_arg3 (c : Dev nD) : W4 m D1 D2 c (Proc.devRef .tc main_arg3) = m ((c : Thread nD τ).loc main_arg3) :=
  (W4_of_ne m D1 D2 c main_arg3 (by decide)).trans <| (W3_of_ne m D1 c main_arg3 (by decide)).trans <| (W2_of m c main_arg3 (by decide)).trans <|
    (W1_of_ne m c main_arg3 (by decide)).trans rfl
theorem W4_arg4 (c : Dev nD) : W4 m D1 D2 c (Proc.devRef .tc main_arg4) = m ((c : Thread nD τ).loc main_arg4) :=
  (W4_of_ne m D1 D2 c main_arg4 (by decide)).trans <| (W3_of_ne m D1 c main_arg4 (by decide)).trans <| (W2_of m c main_arg4 (by decide)).trans <|
    (W1_of_ne m c main_arg4 (by decide)).trans rfl

include h1 h2 in
/-- THE FRAME: every weakly fair execution terminates, nothing faulting, with each argument array as launched, and with
    the result array at what region 2's write-backs leave. -/
theorem run_frame_value (ρ : Dev nD → PrngReg) : θ_run defs (onTc (τ := τ) (main (F := F))) ⟨m, fun _ => 0, ρ⟩ (fun r => ∀ c : Dev nD,
      r.2.mem ((c.tc : Thread nD τ).loc main_v4) = (D2 (V3 m D1) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W4_v4 m D1 D2 c),
     (h c _ (mem_uc main_arg0 (by decide))).trans (W4_arg0 m D1 D2 c),
     (h c _ (mem_uc main_arg1 (by decide))).trans (W4_arg1 m D1 D2 c),
     (h c _ (mem_uc main_arg2 (by decide))).trans (W4_arg2 m D1 D2 h1 h2 c),
     (h c _ (mem_uc main_arg3 (by decide))).trans (W4_arg3 m D1 D2 c),
     (h c _ (mem_uc main_arg4 (by decide))).trans (W4_arg4 m D1 D2 c)⟩) (run_all m D1 D2 h1 h2 ρ)

include h1 h2 in
theorem run_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_frame_value m D1 D2 h1 h2 ρ)

end Cert.Kernel.H

end
-- ==== Proof.K.Reg1Dat.lean ====
/-
  Region 1, an accumulating kernel: the pipeline's proof data and the invariant that carries the accumulator
  from one grid point to the next. The accumulator is a scratch buffer of the kernel's own; it is reset where the
  inner coordinate is 0, added to at every point, and read for the output block where the inner coordinate is the
  last. So the invariant before a point names the accumulator's contents as the running sum the point before left,
  and nothing at all before the first point. Everything is a function of the contents `V` the region finds in the
  buffers when it is entered, and holds at any float type.
-/
import proofs.«149786_j41644002902021_2_alg».proof.Proof.K.Defs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- An input window's current staging buffer holds its block at every point, fetched there or not, for any proof
    data whose array is the region-entry contents and whose body leaves the block in place: the window is uncut
    and never idle, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant -/

/-- The core's scoped buffers that are neither a staging buffer of this region nor its accumulator, each whole at
    some contents, and the generator register at some state: what the body never touches. -/
def rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r))

/-- The region invariant before the point at position `n`: the accumulator at some contents, which after a point
    (`n = k + 1`) are the running sum that point leaves, beside the untouched rest. Before the first point nothing
    is known of the accumulator, and nothing needs to be: the first point resets it. -/
def Phi1 (c : Dev nD) (n : ℕ) : sProp 𝕄 :=
  iprop((∃ d, ⌜∀ (k : ℕ) (hk : k < cfg1.N), n = k + 1 → d = acc1 V c k hk⌝ ∗ owns (c : Thread nD τ) scM1 fullShare d) ∗ rest1 (F := F) c)

/-- What the launch hands the region is the accumulator at anything beside the rest, -/
theorem PhiA1_split (c : Dev nD) :
    (Pipeline.ΦA spec1 c : sProp 𝕄) ⊢ iprop((∃ d, owns (c : Thread nD τ) scM1 fullShare d) ∗ rest1 (F := F) c) := by
  unfold Pipeline.ΦA rest1; rw [scopedRest1_eq]
  iintro ⟨⟨A0, A1, A2, A3, A4, ⟨%f, HS⟩, A6, A7, A8, A9, A10, A11, A12, A13⟩, Hg⟩
  isplitl [HS]
  · iexists f; rw [show scM1 = Memref.whole cc1_scratch0 from rfl, owns_whole]; iexact HS
  iframe

/-- and conversely. -/
theorem PhiA1_join (c : Dev nD) :
    iprop((∃ d, owns (c : Thread nD τ) scM1 fullShare d) ∗ rest1 (F := F) c) ⊢ (Pipeline.ΦA spec1 c : sProp 𝕄) := by
  unfold Pipeline.ΦA rest1; rw [scopedRest1_eq]
  simp only [scM1, owns_whole]
  iintro ⟨⟨%d, HS⟩, ⟨A0, A1, A2, A3, A4, A5, A6, A7, A8, A9, A10, A11, A12⟩, Hg⟩
  iframe
  iexists d; iexact HS

/-- The invariant gives up the accumulator at some contents, at any position; -/
theorem Phi1_any (c : Dev nD) (n : ℕ) :
    Phi1 V c n ⊢ iprop((∃ d, owns (c : Thread nD τ) scM1 fullShare d) ∗ rest1 (F := F) c) := by
  unfold Phi1
  iintro ⟨⟨%d, %hd, HS⟩, HR⟩
  isplitl [HS]
  · iexists d; iexact HS
  iexact HR

/-- after a point, at what the point before left; -/
theorem Phi1_pos (c : Dev nD) (t : Fin cfg1.N) (h : t.val ≠ 0) :
    Phi1 V c t.val ⊢ iprop(owns (c : Thread nD τ) scM1 fullShare (acc1 V c (t.val - 1) (Nat.lt_of_le_of_lt (Nat.sub_le _ _) t.isLt)) ∗ rest1 (F := F) c) := by
  unfold Phi1
  iintro ⟨⟨%d, %hd, HS⟩, HR⟩
  isplitl [HS]
  · rw [← hd (t.val - 1) (Nat.lt_of_le_of_lt (Nat.sub_le _ _) t.isLt) (by omega)]; iexact HS
  iexact HR

/-- and takes it back, after the point at position `t`, at what that point leaves. -/
theorem Phi1_intro (c : Dev nD) (t : Fin cfg1.N) (x : Vec F S2048x128 .f32) (hx : x = acc1 V c t.val t.isLt) :
    iprop(owns (c : Thread nD τ) scM1 fullShare x ∗ rest1 (F := F) c) ⊢ Phi1 V c (t.val + 1) := by
  unfold Phi1
  iintro ⟨HS, HR⟩
  isplitl [HS]
  · iexists x; isplitr
    · ipureintro; intro k hk e; obtain rfl : t.val = k := Nat.succ.inj e; exact hx
    iexact HS
  iexact HR

/-! ## The accumulator, case by case -/

theorem acc1_first (c : Dev nD) (t : Fin cfg1.N) (h0 : t.val % 8 = 0) :
    acc1 V c t.val t.isLt = k1_pay2 (iblk1 V c 0 t) (iblk1 V c 1 t) (k1_pay1 (F := F)) :=
  (acc1_eq V c t).trans (by rw [if_pos h0])

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) :=
  (acc1_eq V c t).trans (by rw [if_neg h0])

/-! ## The pipeline's proof data -/

/-- The proof data of the region on core `c`: the arrays as the region finds them; after the body at point `t`
    each input's buffer at its block and the output's at `out1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- The invariant at a point's start and end, restated at the point's position. -/
theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := by
  dsimp only [dat1]; simp only [Fin.val_succ]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Entering and leaving the region -/

/-- What the launch hands the region is the invariant before the first point: nothing is claimed of the accumulator there. -/
theorem hin1 (c : Dev nD) : Pipeline.ΦA spec1 c ⊢ (dat1 V c).Φ 0 := by
  rw [show (dat1 V c).Φ 0 = Phi1 V c 0 from rfl]
  refine (PhiA1_split c).trans ?_
  unfold Phi1
  iintro ⟨⟨%d, HS⟩, HR⟩
  isplitl [HS]
  · iexists d; isplitr
    · ipureintro; intro k hk e; exact absurd e (Nat.succ_ne_zero k).symm
    iexact HS
  iexact HR

/-- After the last point the invariant gives the launch's back: the accumulator's named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl]
  exact (Phi1_any V c _).trans (PhiA1_join c)

end Cert.Kernel.H

end
-- ==== Proof.K.Run1A.lean ====
/-
  Region 1's body at the first point of an accumulation (the accumulator is restarted, the output block is not
  written): on whole buffers held at contents `x0`, `x1`, `x2`, `xi3` and an accumulator holding anything, the body runs
  to the continuation with every window's buffer as it was and the accumulator at zero plus this point's product.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run1_A (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S8192x1 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x2048 .f32) (x1 : Vec F S2048x128 .f32) (x2 : Vec F S8192x1 .f32) (xi3 : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 (k1_pay1 (F := F)))) -∗ K ⟨⟩))
      ⊢ wp frame (wpE (defs₀ (F := F)) Variants.none c none) E (cc1__ey_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc1__ey_kernel_eq_skeleton]; unfold cc1__ey_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  sl_unfold_run_names
  rw [readAt_unread_unit_zero arg2 harg2 hz_b, readAt_unread_unit_zero arg3 harg3 hz_a,
    readCov_cons_unit_zero _ hz_a]

end Cert.Kernel.H

end
-- ==== Proof.K.Run1B.lean ====
/-
  Region 1's body at a middle point of an accumulation (the accumulator is neither restarted nor read out):
  on whole buffers held at contents `x0`, `x1`, `x2`, `xi3` and an accumulator held at `xs`, the body runs to the
  continuation with every window's buffer as it was and the accumulator at `xs` plus this point's product.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run1_B (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S8192x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x2048 .f32) (x1 : Vec F S2048x128 .f32) (x2 : Vec F S8192x1 .f32) (xi3 : Vec F S2048x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 xs)) -∗ K ⟨⟩))
      ⊢ wp frame (wpE (defs₀ (F := F)) Variants.none c none) E (cc1__ey_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc1__ey_kernel_eq_skeleton]; unfold cc1__ey_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.Kernel.H

end
-- ==== Proof.K.Run1C.lean ====
/-
  Region 1's body at the last point of an accumulation (the output block is written): on whole buffers held at
  contents `x0`, `x1`, `x2`, an output buffer holding anything and an accumulator held at `xs`, the body runs to the
  continuation with the inputs' buffers as they were, the accumulator at `xs` plus this point's product, and the output
  buffer at the diagonal's rows of this block times that finished accumulator.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run1_C (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S8192x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x2048 .f32) (x1 : Vec F S2048x128 .f32) (x2 : Vec F S8192x1 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (View.ld x2 (rd1 i hc1)) (k1_pay2 x0 x1 xs)) ∗ owns (c : Thread nD τ) arg6 fullShare (k1_pay2 x0 x1 xs)) -∗ K ⟨⟩))
      ⊢ wp frame (wpE (defs₀ (F := F)) Variants.none c none) E (cc1__ey_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc1__ey_kernel_eq_skeleton]; unfold cc1__ey_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    on_goal 2 => iexact H3
    ipureintro
    refine (read_writes_cons_unit_zero _ _ hz_a _ _ _).trans ?_
    sl_unfold_run_names
    rw [readAt_unread arg4 harg4, readCov_cons_unit_zero _ hz_a, readAt_unread_unit_zero arg2 harg2 hz_b,
      readAt_unread_unit_zero arg3 harg3 hz_a, readAt_unread_unit_zero arg6 harg6 hz_a]
  iexists _; isplitr
  on_goal 2 => iexact HS
  ipureintro
  sl_unfold_run_names
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.Kernel.H

end
-- ==== Proof.K.Reg1.lean ====
/-
  Region 1: the body obligation. At every grid point the kernel body, run on the windows' current staging
  buffers and the accumulator, takes the invariant before the point to the invariant after it and leaves every
  window's buffer at what the proof data states: the body's triple in whichever of the three cases (the
  accumulation starts here; it continues; it ends here and the output block is stored) the point's position selects.
-/
import proofs.«149786_j41644002902021_2_alg».proof.Proof.K.Reg1Dat
import proofs.«149786_j41644002902021_2_alg».proof.Proof.K.Run1A
import proofs.«149786_j41644002902021_2_alg».proof.Proof.K.Run1B
import proofs.«149786_j41644002902021_2_alg».proof.Proof.K.Run1C

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position says which of the three
    cases it is in. Where the accumulation starts the accumulator is handed over at anything and comes back at the
    point's product added to zero; elsewhere it is handed over at what the point before left and comes back with
    this point's product added. The output window is idle, and handed back as found, except at the last point of
    an accumulation, where it is stored with the diagonal's rows times the finished accumulator. The core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    iintro ⟨HΦ, Ho, ⟨%d0, H0⟩, ⟨%d1, H1⟩, ⟨%d2, H2⟩, ⟨%d3, H3⟩⟩
    icases (Phi1_any V c t.val) $$ HΦ with ⟨⟨%ds, HS⟩, HR⟩
    iapply (run1_A c Set.univ (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexists ds; iexact HS
    iintro ⟨H0, H1, H2, H3, HS⟩
    isplitl [HS HR]
    · iapply (Phi1_intro V c t _ (acc1_first V c t h0).symm)
      isplitl [HS]; · iexact HS
      iexact HR
    isplitl [Ho]; · iexact Ho
    isplitl [H0]; · iexact H0
    isplitl [H1]; · iexact H1
    isplitl [H2]; · iexact H2
    iexists d3; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, out1_eq V c t hc1, acc1_next V c t h0]
      iintro ⟨HΦ, Ho, ⟨%d0, H0⟩, ⟨%d1, H1⟩, ⟨%d2, H2⟩, ⟨%d3, H3⟩⟩
      icases (Phi1_pos V c t hz) $$ HΦ with ⟨HS, HR⟩
      iapply (run1_C c Set.univ (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · iapply (Phi1_intro V c t _ (acc1_next V c t h0).symm)
        isplitl [HS]; · iexact HS
        iexact HR
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨HΦ, Ho, ⟨%d0, H0⟩, ⟨%d1, H1⟩, ⟨%d2, H2⟩, ⟨%d3, H3⟩⟩
      icases (Phi1_pos V c t hz) $$ HΦ with ⟨HS, HR⟩
      iapply (run1_B c Set.univ (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · iapply (Phi1_intro V c t _ (acc1_next V c t h0).symm)
        isplitl [HS]; · iexact HS
        iexact HR
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.Reg2Dat.lean ====
/-
  Region 2, an accumulating kernel: the pipeline's proof data and the invariant that carries the accumulator
  from one grid point to the next. The accumulator is a scratch buffer of the kernel's own; it is reset where the
  inner coordinate is 0, added to at every point, and read for the output block where the inner coordinate is the
  last. So the invariant before a point names the accumulator's contents as the running sum the point before left,
  and nothing at all before the first point. Everything is a function of the contents `V` the region finds in the
  buffers when it is entered, and holds at any float type.
-/
import proofs.«149786_j41644002902021_2_alg».proof.Proof.K.Defs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- An input window's current staging buffer holds its block at every point, fetched there or not, for any proof
    data whose array is the region-entry contents and whose body leaves the block in place: the window is uncut
    and never idle, and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The invariant -/

/-- The core's scoped buffers that are neither a staging buffer of this region nor its accumulator, each whole at
    some contents, and the generator register at some state: what the body never touches. -/
def rest2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

/-- The region invariant before the point at position `n`: the accumulator at some contents, which after a point
    (`n = k + 1`) are the running sum that point leaves, beside the untouched rest. Before the first point nothing
    is known of the accumulator, and nothing needs to be: the first point resets it. -/
def Phi2 (c : Dev nD) (n : ℕ) : sProp 𝕄 :=
  iprop((∃ d, ⌜∀ (k : ℕ) (hk : k < cfg2.N), n = k + 1 → d = acc2 V c k hk⌝ ∗ owns (c : Thread nD τ) scM2 fullShare d) ∗ rest2 (F := F) c)

/-- What the launch hands the region is the accumulator at anything beside the rest, -/
theorem PhiA2_split (c : Dev nD) :
    (Pipeline.ΦA spec2 c : sProp 𝕄) ⊢ iprop((∃ d, owns (c : Thread nD τ) scM2 fullShare d) ∗ rest2 (F := F) c) := by
  unfold Pipeline.ΦA rest2; rw [scopedRest2_eq]
  iintro ⟨⟨A0, A1, A2, A3, A4, A5, A6, A7, A8, A9, A10, A11, A12, ⟨%f, HS⟩⟩, Hg⟩
  isplitl [HS]
  · iexists f; rw [show scM2 = Memref.whole cc2_scratch0 from rfl, owns_whole]; iexact HS
  iframe

/-- and conversely. -/
theorem PhiA2_join (c : Dev nD) :
    iprop((∃ d, owns (c : Thread nD τ) scM2 fullShare d) ∗ rest2 (F := F) c) ⊢ (Pipeline.ΦA spec2 c : sProp 𝕄) := by
  unfold Pipeline.ΦA rest2; rw [scopedRest2_eq]
  simp only [scM2, owns_whole]
  iintro ⟨⟨%d, HS⟩, ⟨A0, A1, A2, A3, A4, A5, A6, A7, A8, A9, A10, A11, A12⟩, Hg⟩
  iframe
  iexists d; iexact HS

/-- The invariant gives up the accumulator at some contents, at any position; -/
theorem Phi2_any (c : Dev nD) (n : ℕ) :
    Phi2 V c n ⊢ iprop((∃ d, owns (c : Thread nD τ) scM2 fullShare d) ∗ rest2 (F := F) c) := by
  unfold Phi2
  iintro ⟨⟨%d, %hd, HS⟩, HR⟩
  isplitl [HS]
  · iexists d; iexact HS
  iexact HR

/-- after a point, at what the point before left; -/
theorem Phi2_pos (c : Dev nD) (t : Fin cfg2.N) (h : t.val ≠ 0) :
    Phi2 V c t.val ⊢ iprop(owns (c : Thread nD τ) scM2 fullShare (acc2 V c (t.val - 1) (Nat.lt_of_le_of_lt (Nat.sub_le _ _) t.isLt)) ∗ rest2 (F := F) c) := by
  unfold Phi2
  iintro ⟨⟨%d, %hd, HS⟩, HR⟩
  isplitl [HS]
  · rw [← hd (t.val - 1) (Nat.lt_of_le_of_lt (Nat.sub_le _ _) t.isLt) (by omega)]; iexact HS
  iexact HR

/-- and takes it back, after the point at position `t`, at what that point leaves. -/
theorem Phi2_intro (c : Dev nD) (t : Fin cfg2.N) (x : Vec F S2048x128 .f32) (hx : x = acc2 V c t.val t.isLt) :
    iprop(owns (c : Thread nD τ) scM2 fullShare x ∗ rest2 (F := F) c) ⊢ Phi2 V c (t.val + 1) := by
  unfold Phi2
  iintro ⟨HS, HR⟩
  isplitl [HS]
  · iexists x; isplitr
    · ipureintro; intro k hk e; obtain rfl : t.val = k := Nat.succ.inj e; exact hx
    iexact HS
  iexact HR

/-! ## The accumulator, case by case -/

theorem acc2_first (c : Dev nD) (t : Fin cfg2.N) (h0 : t.val % 4 = 0) :
    acc2 V c t.val t.isLt = k2_pay2 (iblk2 V c 0 t) (iblk2 V c 1 t) (k2_pay1 (F := F)) :=
  (acc2_eq V c t).trans (by rw [if_pos h0])

theorem acc2_next (c : Dev nD) (t : Fin cfg2.N) (h0 : ¬t.val % 4 = 0) :
    acc2 V c t.val t.isLt = k2_pay2 (iblk2 V c 0 t) (iblk2 V c 1 t) (acc2 V c (t.val - 1) (Nat.lt_of_le_of_lt (Nat.sub_le _ _) t.isLt)) :=
  (acc2_eq V c t).trans (by rw [if_neg h0])

/-! ## The pipeline's proof data -/

/-- The proof data of the region on core `c`: the arrays as the region finds them; after the body at point `t`
    each input's buffer at its block and the output's at `out2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- The invariant at a point's start and end, restated at the point's position. -/
theorem Phi2_castSucc (c : Dev nD) (t : Fin cfg2.N) : (dat2 V c).Φ t.castSucc = Phi2 V c t.val := by
  dsimp only [dat2]; simp only [Fin.coe_castSucc]
theorem Phi2_succ (c : Dev nD) (t : Fin cfg2.N) : (dat2 V c).Φ t.succ = Phi2 V c (t.val + 1) := by
  dsimp only [dat2]; simp only [Fin.val_succ]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## Entering and leaving the region -/

/-- What the launch hands the region is the invariant before the first point: nothing is claimed of the accumulator there. -/
theorem hin2 (c : Dev nD) : Pipeline.ΦA spec2 c ⊢ (dat2 V c).Φ 0 := by
  rw [show (dat2 V c).Φ 0 = Phi2 V c 0 from rfl]
  refine (PhiA2_split c).trans ?_
  unfold Phi2
  iintro ⟨⟨%d, HS⟩, HR⟩
  isplitl [HS]
  · iexists d; isplitr
    · ipureintro; intro k hk e; exact absurd e (Nat.succ_ne_zero k).symm
    iexact HS
  iexact HR

/-- After the last point the invariant gives the launch's back: the accumulator's named contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val from rfl]
  exact (Phi2_any V c _).trans (PhiA2_join c)

end Cert.Kernel.H

end
-- ==== Proof.K.Run2A.lean ====
/-
  Region 2's body at the first point of an accumulation (the accumulator is restarted, the output block is not
  written): on whole buffers held at contents `x0`, `x1`, `x2`, `xi3` and an accumulator holding anything, the body runs
  to the continuation with every window's buffer as it was and the accumulator at zero plus this point's product.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run2_A (c : Dev nD) (E : Set ℕ) (i : grid2.Coords) (arg2 : Memref sig .tc .vmem S2048x2048 .f32) (harg2 : arg2.IsWhole) (arg3 : Memref sig .tc .vmem S2048x128 .f32) (harg3 : arg3.IsWhole) (arg4 : Memref sig .tc .vmem S16384x1 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x2048 .f32) (x1 : Vec F S2048x128 .f32) (x2 : Vec F S16384x1 .f32) (xi3 : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 (k2_pay1 (F := F)))) -∗ K ⟨⟩))
      ⊢ wp frame (wpE (defs₀ (F := F)) Variants.none c none) E (cc2__ny_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc2__ny_kernel_eq_skeleton]; unfold cc2__ny_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  sl_unfold_run_names
  rw [readAt_unread_unit_zero arg2 harg2 hz_b, readAt_unread_unit_zero arg3 harg3 hz_a,
    readCov_cons_unit_zero _ hz_a]

end Cert.Kernel.H

end
-- ==== Proof.K.Run2B.lean ====
/-
  Region 2's body at a middle point of an accumulation (the accumulator is neither restarted nor read out):
  on whole buffers held at contents `x0`, `x1`, `x2`, `xi3` and an accumulator held at `xs`, the body runs to the
  continuation with every window's buffer as it was and the accumulator at `xs` plus this point's product.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run2_B (c : Dev nD) (E : Set ℕ) (i : grid2.Coords) (arg2 : Memref sig .tc .vmem S2048x2048 .f32) (harg2 : arg2.IsWhole) (arg3 : Memref sig .tc .vmem S2048x128 .f32) (harg3 : arg3.IsWhole) (arg4 : Memref sig .tc .vmem S16384x1 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x2048 .f32) (x1 : Vec F S2048x128 .f32) (x2 : Vec F S16384x1 .f32) (xi3 : Vec F S2048x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 xs)) -∗ K ⟨⟩))
      ⊢ wp frame (wpE (defs₀ (F := F)) Variants.none c none) E (cc2__ny_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc2__ny_kernel_eq_skeleton]; unfold cc2__ny_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.Kernel.H

end
-- ==== Proof.K.Run2C.lean ====
/-
  Region 2's body at the last point of an accumulation (the output block is written): on whole buffers held at
  contents `x0`, `x1`, `x2`, an output buffer holding anything and an accumulator held at `xs`, the body runs to the
  continuation with the inputs' buffers as they were, the accumulator at `xs` plus this point's product, and the output
  buffer at the diagonal's rows of this block times that finished accumulator.
-/
import proofs.«149786_j41644002902021_2_alg».proof.Proof.K.Defs
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run2_C (c : Dev nD) (E : Set ℕ) (i : grid2.Coords) (arg2 : Memref sig .tc .vmem S2048x2048 .f32) (harg2 : arg2.IsWhole) (arg3 : Memref sig .tc .vmem S2048x128 .f32) (harg3 : arg3.IsWhole) (arg4 : Memref sig .tc .vmem S16384x1 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x2048 .f32) (x1 : Vec F S2048x128 .f32) (x2 : Vec F S16384x1 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (View.ld x2 (rd2 i hc1)) (k2_pay2 x0 x1 xs)) ∗ owns (c : Thread nD τ) arg6 fullShare (k2_pay2 x0 x1 xs)) -∗ K ⟨⟩))
      ⊢ wp frame (wpE (defs₀ (F := F)) Variants.none c none) E (cc2__ny_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc2__ny_kernel_eq_skeleton]; unfold cc2__ny_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    on_goal 2 => iexact H3
    ipureintro
    refine (read_writes_cons_unit_zero _ _ hz_a _ _ _).trans ?_
    sl_unfold_run_names
    rw [readAt_unread arg4 harg4, readCov_cons_unit_zero _ hz_a, readAt_unread_unit_zero arg2 harg2 hz_b,
      readAt_unread_unit_zero arg3 harg3 hz_a, readAt_unread_unit_zero arg6 harg6 hz_a]
  iexists _; isplitr
  on_goal 2 => iexact HS
  ipureintro
  sl_unfold_run_names
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.Kernel.H

end
-- ==== Proof.K.Reg2.lean ====
/-
  Region 2: the body obligation. At every grid point the kernel body, run on the windows' current staging
  buffers and the accumulator, takes the invariant before the point to the invariant after it and leaves every
  window's buffer at what the proof data states: the body's triple in whichever of the three cases (the
  accumulation starts here; it continues; it ends here and the output block is stored) the point's position selects.
-/
import proofs.«149786_j41644002902021_2_alg».proof.Proof.K.Reg2Dat
import proofs.«149786_j41644002902021_2_alg».proof.Proof.K.Run2A
import proofs.«149786_j41644002902021_2_alg».proof.Proof.K.Run2B
import proofs.«149786_j41644002902021_2_alg».proof.Proof.K.Run2C

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position says which of the three
    cases it is in. Where the accumulation starts the accumulator is handed over at anything and comes back at the
    point's product added to zero; elsewhere it is handed over at what the point before left and comes back with
    this point's product added. The output window is idle, and handed back as found, except at the last point of
    an accumulation, where it is stored with the diagonal's rows times the finished accumulator. The core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [Phi2_castSucc, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    iintro ⟨HΦ, Ho, ⟨%d0, H0⟩, ⟨%d1, H1⟩, ⟨%d2, H2⟩, ⟨%d3, H3⟩⟩
    icases (Phi2_any V c t.val) $$ HΦ with ⟨⟨%ds, HS⟩, HR⟩
    iapply (run2_A c Set.univ (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) ((dat2 V c).before 3 t d3) _)
    isplitl [H0]; · iexact H0
    isplitl [H1]; · iexact H1
    isplitl [H2]; · iexact H2
    isplitl [H3]; · iexact H3
    isplitl [HS]; · iexists ds; iexact HS
    iintro ⟨H0, H1, H2, H3, HS⟩
    isplitl [HS HR]
    · iapply (Phi2_intro V c t _ (acc2_first V c t h0).symm)
      isplitl [HS]; · iexact HS
      iexact HR
    isplitl [Ho]; · iexact Ho
    isplitl [H0]; · iexact H0
    isplitl [H1]; · iexact H1
    isplitl [H2]; · iexact H2
    iexists d3; iexact H3
  · have hz : t.val ≠ 0 := fun e => h0 (by rw [e])
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3, out2_eq V c t hc1, acc2_next V c t h0]
      iintro ⟨HΦ, Ho, ⟨%d0, H0⟩, ⟨%d1, H1⟩, ⟨%d2, H2⟩, ⟨%d3, H3⟩⟩
      icases (Phi2_pos V c t hz) $$ HΦ with ⟨HS, HR⟩
      iapply (run2_C c Set.univ (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · iapply (Phi2_intro V c t _ (acc2_next V c t h0).symm)
        isplitl [HS]; · iexact HS
        iexact HR
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨HΦ, Ho, ⟨%d0, H0⟩, ⟨%d1, H1⟩, ⟨%d2, H2⟩, ⟨%d3, H3⟩⟩
      icases (Phi2_pos V c t hz) $$ HΦ with ⟨HS, HR⟩
      iapply (run2_B c Set.univ (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) ((dat2 V c).before 3 t d3) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · iapply (Phi2_intro V c t _ (acc2_next V c t h0).symm)
        isplitl [HS]; · iexact HS
        iexact HR
      isplitl [Ho]; · iexact Ho
      isplitl [H0]; · iexact H0
      isplitl [H1]; · iexact H1
      isplitl [H2]; · iexact H2
      iexists d3; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Ok.lean ====
/-
  The proof data of the two accumulating regions have what the launch asks of them: the arrays they start from are the
  contents the region finds, every window's share is whole, nothing is owed, the body keeps its obligation at every
  point, and the regions' invariants begin and end at the staging buffers' plain ownership. With them the whole program
  runs and leaves its five argument arrays as launched.
-/
import proofs.«149786_j41644002902021_2_alg».proof.Proof.K.Fold
import proofs.«149786_j41644002902021_2_alg».proof.Proof.K.Reg1
import proofs.«149786_j41644002902021_2_alg».proof.Proof.K.Reg2

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Region 1's proof data meet the launch's requirements. -/
theorem ok1 : Ok1 (F := F) (fun V c => dat1 V c) :=
  ⟨fun V c w => A_eq1 V c w, fun _ _ _ => rfl, fun _ _ _ => rfl, fun _ _ _ => rfl, fun V c => body_obligation1 V c,
    fun V c => hin1 V c, fun V c => hout1 V c⟩

/-- Region 2's proof data meet the launch's requirements. -/
theorem ok2 : Ok2 (F := F) (fun V c => dat2 V c) :=
  ⟨fun V c w => A_eq2 V c w, fun _ _ _ => rfl, fun _ _ _ => rfl, fun _ _ _ => rfl, fun V c => body_obligation2 V c,
    fun V c => hin2 V c, fun V c => hout2 V c⟩

/-- Every fair execution of the program terminates, nothing faulting, with its five argument arrays as launched. -/
theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_frame m _ _ ok1 ok2 ρ

end Cert.Kernel.H

end
-- ==== Proof.KI.Defs.lean ====
/-
  The three kernel regions' contents, stated once: the block each window shows the body at a grid point, the
  matrix product region 0 leaves per row tile, and, for the two accumulating regions, what the accumulator holds
  after each point (a running sum over the tiles of the contracted axis, restarted where a new output block begins)
  and what the output block holds where it is written (the diagonal's rows times the finished accumulator).
  Everything is a function of the contents `V` the region finds in the buffers when it is entered.
-/
import proofs.«149786_j41644002902021_2_alg».proof.Proof.Gen.KernelIdeal.Launch
import proofs.«149786_j41644002902021_2_alg».proof.Proof.Gen.KernelIdeal.Skeleton
import proofs.«149786_j41644002902021_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: one row tile of the projection per point -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block at point `t`: the row tile times the whole weight matrix. -/
def out0 (c : Dev nD) (t : Fin cfg0.N) : Vec F S2048x128 .f32 := k0_pay1 (iblk0 V c 0 t) (iblk0 V c 1 t)

/-! ## Region 1: an accumulation over 8 tiles -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator is reset at the points whose inner coordinate is 0, -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- and the output block is written at the points whose inner coordinate is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The rectangle of the diagonal's rows read at a point that writes its output block. -/
abbrev rd1 (i : grid1.Coords) (h : cond1_1 i) : Rect S8192x1 :=
  Rect.unit (s := S8192x1) (k1_off1 i) S2048x1.size (k1_off1_inb i h)

/-- What the accumulator holds after the point at position `n`: this point's product added to what the point
    before left, or to zero where the accumulation starts. -/
def acc1 (c : Dev nD) : (n : ℕ) → n < cfg1.N → Vec F S2048x128 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 8 = 0 then k1_pay1 (F := F) else acc1 c n (Nat.lt_of_succ_lt h))

theorem acc1_eq (c : Dev nD) (t : Fin cfg1.N) :
    acc1 V c t.val t.isLt = k1_pay2 (iblk1 V c 0 t) (iblk1 V c 1 t)
      (if t.val % 8 = 0 then k1_pay1 (F := F) else acc1 V c (t.val - 1) (Nat.lt_of_le_of_lt (Nat.sub_le _ _) t.isLt)) := by
  obtain ⟨n, hn⟩ := t
  cases n with
  | zero => rfl
  | succ n => rfl

/-- What the output window's buffer holds after a point that writes it: the diagonal's rows times the accumulator
    (elsewhere the buffer is not stored into, and this value is not consulted). -/
def out1 (c : Dev nD) (t : Fin cfg1.N) : Vec F S2048x128 .f32 :=
  if h : cond1_1 (grid1.coords t) then
    k1_pay3 (View.ld (iblk1 V c 2 t) (rd1 (grid1.coords t) h)) (acc1 V c t.val t.isLt)
  else k1_pay1 (F := F)

theorem out1_eq (c : Dev nD) (t : Fin cfg1.N) (h : cond1_1 (grid1.coords t)) :
    out1 V c t = k1_pay3 (View.ld (iblk1 V c 2 t) (rd1 (grid1.coords t) h)) (acc1 V c t.val t.isLt) := dif_pos h

/-- The input windows are never idle; the output window is idle exactly where the body does not store into it, and there it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, and the scratch accumulator. -/
abbrev ms1_0 (t : Fin cfg1.N) : Memref sig .tc .vmem S2048x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
abbrev scM1 : Memref sig .tc .vmem S2048x128 .f32 := Memref.whole cc1_scratch0

/-! ## Region 2: an accumulation over 4 tiles -/

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator is reset at the points whose inner coordinate is 0, -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- and the output block is written at the points whose inner coordinate is the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-- The rectangle of the diagonal's rows read at a point that writes its output block. -/
abbrev rd2 (i : grid2.Coords) (h : cond2_1 i) : Rect S16384x1 :=
  Rect.unit (s := S16384x1) (k2_off1 i) S2048x1.size (k2_off1_inb i h)

/-- What the accumulator holds after the point at position `n`: this point's product added to what the point
    before left, or to zero where the accumulation starts. -/
def acc2 (c : Dev nD) : (n : ℕ) → n < cfg2.N → Vec F S2048x128 .f32
  | 0, h => k2_pay2 (iblk2 V c 0 ⟨0, h⟩) (iblk2 V c 1 ⟨0, h⟩) (k2_pay1 (F := F))
  | n + 1, h => k2_pay2 (iblk2 V c 0 ⟨n + 1, h⟩) (iblk2 V c 1 ⟨n + 1, h⟩)
      (if (n + 1) % 4 = 0 then k2_pay1 (F := F) else acc2 c n (Nat.lt_of_succ_lt h))

theorem acc2_eq (c : Dev nD) (t : Fin cfg2.N) :
    acc2 V c t.val t.isLt = k2_pay2 (iblk2 V c 0 t) (iblk2 V c 1 t)
      (if t.val % 4 = 0 then k2_pay1 (F := F) else acc2 V c (t.val - 1) (Nat.lt_of_le_of_lt (Nat.sub_le _ _) t.isLt)) := by
  obtain ⟨n, hn⟩ := t
  cases n with
  | zero => rfl
  | succ n => rfl

/-- What the output window's buffer holds after a point that writes it: the diagonal's rows times the accumulator
    (elsewhere the buffer is not stored into, and this value is not consulted). -/
def out2 (c : Dev nD) (t : Fin cfg2.N) : Vec F S2048x128 .f32 :=
  if h : cond2_1 (grid2.coords t) then
    k2_pay3 (View.ld (iblk2 V c 2 t) (rd2 (grid2.coords t) h)) (acc2 V c t.val t.isLt)
  else k2_pay1 (F := F)

theorem out2_eq (c : Dev nD) (t : Fin cfg2.N) (h : cond2_1 (grid2.coords t)) :
    out2 V c t = k2_pay3 (View.ld (iblk2 V c 2 t) (rd2 (grid2.coords t) h)) (acc2 V c t.val t.isLt) := dif_pos h

/-- The input windows are never idle; the output window is idle exactly where the body does not store into it, and there it is not written back. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- Each window's current staging memref at point `t`, and the scratch accumulator. -/
abbrev ms2_0 (t : Fin cfg2.N) : Memref sig .tc .vmem S2048x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16384x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
abbrev scM2 : Memref sig .tc .vmem S2048x128 .f32 := Memref.whole cc2_scratch0

end Cert.KernelIdeal.H

end
-- ==== Proof.KI.Reg0.lean ====
/-
  Region 0, the projection: at each of its 8 points the body reads a 2048-row tile of x and the whole weight
  matrix and stores their product into the output block. Its proof data, at the contents `V` the region finds:
  the inputs' buffers hold their blocks at every point (the weight matrix is fetched once and stays), the output's
  holds the tile's product; nothing is carried from point to point.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

theorem hz2 : (![0, 0] : Fin 2 → Nat) = fun _ => 0 := by
  funext a; match a with | ⟨0, _⟩ => rfl | ⟨1, _⟩ => rfl

set_option maxHeartbeats 1000000 in
/-- The body on whole staging memrefs: the inputs' at read contents, the output's at anything; it leaves the inputs' as
    they were and the output's at the product. -/
theorem sound_kernel0 (c : Dev nD) (E : Set ℕ) (i : grid0.Coords) (arg1 : Memref sig .tc .vmem S2048x256 .f32) (harg1 : arg1.IsWhole)
    (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (View.cover_of_tiled _ S2048x128.size (by rfl))).trans ?_
  rw [View.canon_unit_zero hz2]
  simp only [View.readAt_eq_ld, View.ld_unit_zero (S := S2048x256) hz2, View.ld_unit_zero (S := S256x128) hz2]

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.Run.lean ====
/-
  The whole program as four segments — region 0, the two reshapes of the diagonals, region 1, region 2 — run from
  the launch memory: what every unscoped buffer holds at each boundary (a fold: a region changes only its output
  array, to what its pipeline's write-backs leave; the reshapes write their two results), and the run itself, which
  ends with every unscoped buffer at the last boundary's contents. The proof data of the two accumulating regions
  enter as parameters with the few facts the launch needs of them.
-/
import proofs.«149786_j41644002902021_2_alg».proof.Proof.KI.Reg0

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The contents a region finds, per core and TensorCore reference. -/
abbrev VT (F : FTy → Type) : Type := (c : Dev nD) → (b : Ref sig .tc) → Buf (Elt F) ((c : Thread nD τ).loc b)

/-- What the launch needs of region 1's proof data, whatever contents `V` it is stated at. -/
structure Ok1 (D1 : VT F → (c : Dev nD) → Dat τ (Elt F) Unit ℕ (UR sig nD τ) ℕ cfg1 c) : Prop where
  hA : ∀ (V : VT F) (c : Dev nD) (w : Fin cfg1.W), (D1 V c).A w = V c (Pipeline.arrRef spec1 w)
  hq : ∀ (V : VT F) (c : Dev nD) (w : Fin cfg1.W), (D1 V c).q w = fullShare
  ho : ∀ (V : VT F) (c : Dev nD) (t : Fin (cfg1.N + 1)), (D1 V c).owed t = 0
  hr : ∀ (V : VT F) (c : Dev nD) (t : Fin (cfg1.N + 1)), (D1 V c).recorded t = Set.univ
  hb : ∀ (V : VT F) (c : Dev nD), BodyObligation (D1 V c) (defs₀ (F := F)) Variants.none () Set.univ
  hi : ∀ (V : VT F) (c : Dev nD), (Pipeline.ΦA spec1 c : sProp 𝕄) ⊢ (D1 V c).Φ 0
  hu : ∀ (V : VT F) (c : Dev nD), (D1 V c).Φ (Fin.last cfg1.N) ⊢ (Pipeline.ΦA spec1 c : sProp 𝕄)
/-- The same of region 2's. -/
structure Ok2 (D2 : VT F → (c : Dev nD) → Dat τ (Elt F) Unit ℕ (UR sig nD τ) ℕ cfg2 c) : Prop where
  hA : ∀ (V : VT F) (c : Dev nD) (w : Fin cfg2.W), (D2 V c).A w = V c (Pipeline.arrRef spec2 w)
  hq : ∀ (V : VT F) (c : Dev nD) (w : Fin cfg2.W), (D2 V c).q w = fullShare
  ho : ∀ (V : VT F) (c : Dev nD) (t : Fin (cfg2.N + 1)), (D2 V c).owed t = 0
  hr : ∀ (V : VT F) (c : Dev nD) (t : Fin (cfg2.N + 1)), (D2 V c).recorded t = Set.univ
  hb : ∀ (V : VT F) (c : Dev nD), BodyObligation (D2 V c) (defs₀ (F := F)) Variants.none () Set.univ
  hi : ∀ (V : VT F) (c : Dev nD), (Pipeline.ΦA spec2 c : sProp 𝕄) ⊢ (D2 V c).Φ 0
  hu : ∀ (V : VT F) (c : Dev nD), (D2 V c).Φ (Fin.last cfg2.N) ⊢ (Pipeline.ΦA spec2 c : sProp 𝕄)

variable (m : (ℓ : Loc nD τ sig) → Buf (Elt F) ℓ)
variable (D1 : VT F → (c : Dev nD) → Dat τ (Elt F) Unit ℕ (UR sig nD τ) ℕ cfg1 c)
variable (D2 : VT F → (c : Dev nD) → Dat τ (Elt F) Unit ℕ (UR sig nD τ) ℕ cfg2 c)

/-! ## The buffers' contents at each boundary -/

/-- At launch (region 0's entry). -/
abbrev W0 : Dev nD → Valuation τ sig (Elt F) := fun c b => m (c, b)
abbrev V0 : VT F := fun c b => W0 m c b
/-- After region 0: its output array at what the write-backs leave. -/
def W1 (c : Dev nD) : Valuation τ sig (Elt F) :=
  Pipeline.withArrays spec0 c (W0 m c) fun w => (dat0 (V0 m) c).arrAt w cfg0.N
abbrev V1 : VT F := fun c b => W1 m c b
/-- After the two reshapes (region 1's entry). -/
abbrev W2 : Dev nD → Valuation τ sig (Elt F) := fun c => StableHlo.after hostOps1 (W1 m c)
abbrev V2 : VT F := fun c b => W2 m c b
/-- After region 1 (region 2's entry). -/
def W3 (c : Dev nD) : Valuation τ sig (Elt F) :=
  Pipeline.withArrays spec1 c (W2 m c) fun w => (D1 (V2 m) c).arrAt w cfg1.N
abbrev V3 : VT F := fun c b => W3 m D1 c b
/-- After region 2: the end. -/
def W4 (c : Dev nD) : Valuation τ sig (Elt F) :=
  Pipeline.withArrays spec2 c (W3 m D1 c) fun w => (D2 (V3 m D1) c).arrAt w cfg2.N
abbrev V4 : VT F := fun c b => W4 m D1 D2 c b

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m D1 c (Proc.devRef .tc (Pipeline.arrRef spec1 w)) = (D1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m D1 c (Proc.devRef .tc b) = W2 m c (Proc.devRef .tc b) := by
  unfold W3; exact Pipeline.withArrays_of_ne spec1 c _ _ b hb
theorem W4_arr (c : Dev nD) (w : Fin cfg2.W) :
    W4 m D1 D2 c (Proc.devRef .tc (Pipeline.arrRef spec2 w)) = (D2 (V3 m D1) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m D1 D2 c (Proc.devRef .tc b) = W3 m D1 c (Proc.devRef .tc b) := by
  unfold W4; exact Pipeline.withArrays_of_ne spec2 c _ _ b hb

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => D1 (V2 m) c
  | ⟨2, _⟩ => fun c => D2 (V3 m D1) c

theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (D1 (V2 m) c).arrAt w cfg1.N = V3 m D1 c (Pipeline.arrRef spec1 w) :=
  (W3_arr m D1 c w).symm
theorem hrest1 (c : Dev nD) : ∀ b, b ∉ Finset.univ.image (Pipeline.arrRef spec1) → V3 m D1 c b = V2 m c b :=
  fun b hb => W3_of_ne m D1 c b fun w e => hb (Finset.mem_image.mpr ⟨w, Finset.mem_univ _, e⟩)
theorem hF2 (c : Dev nD) (w : Fin cfg2.W) : (D2 (V3 m D1) c).arrAt w cfg2.N = V4 m D1 D2 c (Pipeline.arrRef spec2 w) :=
  (W4_arr m D1 D2 c w).symm
theorem hrest2 (c : Dev nD) : ∀ b, b ∉ Finset.univ.image (Pipeline.arrRef spec2) → V4 m D1 D2 c b = V3 m D1 c b :=
  fun b hb => W4_of_ne m D1 D2 c b fun w e => hb (Finset.mem_image.mpr ⟨w, Finset.mem_univ _, e⟩)

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m D1 D2 c) ∗ ∃ r, prngReg c r)

/-! ## What the launch needs of the two accumulating regions' proof data -/

theorem hostOps1_fresh : (hostOps1 : List (HloOp τ sig (Elt F))).Forall fun op => op.fresh = ∅ := by
  simp only [List.Forall]; repeat' constructor

variable (h1 : Ok1 D1) (h2 : Ok2 D2)

/-! ## The regions as segments -/

set_option backward.isDefEq.respectTransparency.types false in
/-- Region 0 over the thread state: entered from every unscoped buffer at the boundary's contents, left at the next
    boundary's. Its arrays are split out of the unscoped buffers and put back at what the pipeline leaves; the generator
    register goes into the region's invariant and comes back; nothing is owed; the kernel has no semaphore of its own. -/
def reg0 : Pipeline.RegionSeg (pcfgs (F := F)) adm (pdats m D1 D2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun c t => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m D1 D2) launch0.win launch0.arr_whole c
      ((pdats m D1 D2 0 c).share_full fun w => rfl) (V0 m c) fun w => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (trivial)
      rw [show (pdats m D1 D2 0 c).owed 0 = 0 from rfl]
      iexact HO
    isplitl [Hp]; · iexact Hp
    iexact Hrest
  hin c := by
    rw [show (pdats m D1 D2 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m D1 D2 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D1 D2) ((pdats m D1 D2 0 c).share_full fun w => rfl)
      (V0 m c) (V1 m c) ((pdats m D1 D2 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D1 D2 0 c).owed (Fin.last _) = 0 from rfl]
    iexact HO

include h1

set_option backward.isDefEq.respectTransparency.types false in
/-- Region 1 over the thread state: entered from every unscoped buffer at the boundary's contents, left at the next
    boundary's. Its arrays are split out of the unscoped buffers and put back at what the pipeline leaves; the generator
    register goes into the region's invariant and comes back; nothing is owed; the kernel has no semaphore of its own. -/
def reg1 : Pipeline.RegionSeg (pcfgs (F := F)) adm (pdats m D1 D2) () defs₀ 𝒱₀ L lv 1 where
  win := launch1.win.to₀
  block_pos := launch1.block_pos
  stage_whole := launch1.stage_whole
  K := PEmpty
  osem k := k.elim
  ho := Pipeline.OwnSemFacts.none _
  hbody c := (h1.hb (V2 m) c).loose
  hwaits := Pipeline.hwaits_of_owed_zero _ _ _ _ L lv 1 fun c t => h1.ho (V2 m) c t
  pre c := iprop(StableHlo.held (c : Thread nD τ) (Pipeline.ucRefs τ sig) (W2 m c) ∗ R c)
  post c := iprop(StableHlo.held (c : Thread nD τ) (Pipeline.ucRefs τ sig) (W3 m D1 c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m D1 D2) launch1.win launch1.arr_whole c
      ((pdats m D1 D2 1 c).share_full fun w => h1.hq (V2 m) c w) (V2 m c) fun w => h1.hA (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((h1.hr (V2 m) c 0) ▸ Set.mem_univ _)
      rw [show (pdats m D1 D2 1 c).owed 0 = 0 from h1.ho (V2 m) c 0]
      iexact HO
    isplitl [Hp]; · iexact Hp
    iexact Hrest
  hin c := by
    refine BI.Entails.trans (?_ : _ ⊢ (Pipeline.ΦA spec1 c : sProp 𝕄)) (h1.hi (V2 m) c)
    unfold Pipeline.ΦA
    iintro ⟨Hp, -, Hr⟩
    isplitl [Hr]; · iexact Hr
    iexact Hp
  hout c := by
    rw [Pipeline.ownSems0_none]
    refine BI.Entails.trans (h1.hu (V2 m) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D1 D2) ((pdats m D1 D2 1 c).share_full fun w => h1.hq (V2 m) c w)
      (V2 m c) (V3 m D1 c) ((pdats m D1 D2 1 c).arrAt · cfg1.N) (hF1 m D1 c) (hrest1 m D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D1 D2 1 c).owed (Fin.last _) = 0 from h1.ho (V2 m) c (Fin.last _)]
    iexact HO

include h2

set_option backward.isDefEq.respectTransparency.types false in
/-- Region 2 over the thread state: entered from every unscoped buffer at the boundary's contents, left at the next
    boundary's. Its arrays are split out of the unscoped buffers and put back at what the pipeline leaves; the generator
    register goes into the region's invariant and comes back; nothing is owed; the kernel has no semaphore of its own. -/
def reg2 : Pipeline.RegionSeg (pcfgs (F := F)) adm (pdats m D1 D2) () defs₀ 𝒱₀ L lv 2 where
  win := launch2.win.to₀
  block_pos := launch2.block_pos
  stage_whole := launch2.stage_whole
  K := PEmpty
  osem k := k.elim
  ho := Pipeline.OwnSemFacts.none _
  hbody c := (h2.hb (V3 m D1) c).loose
  hwaits := Pipeline.hwaits_of_owed_zero _ _ _ _ L lv 2 fun c t => h2.ho (V3 m D1) c t
  pre c := iprop(StableHlo.held (c : Thread nD τ) (Pipeline.ucRefs τ sig) (W3 m D1 c) ∗ R c)
  post c := iprop(Tₙ m D1 D2 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m D1 c)
  hentry c := by
    rw [Pipeline.ownSems0_none]
    have hsplit := Pipeline.arrays_of_unscopedBufs (p := 2) (pcfgs (F := F)) adm (pdats m D1 D2) launch2.win launch2.arr_whole c
      ((pdats m D1 D2 2 c).share_full fun w => h2.hq (V3 m D1) c w) (V3 m D1 c) fun w => h2.hA (V3 m D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((h2.hr (V3 m D1) c 0) ▸ Set.mem_univ _)
      rw [show (pdats m D1 D2 2 c).owed 0 = 0 from h2.ho (V3 m D1) c 0]
      iexact HO
    isplitl [Hp]; · iexact Hp
    iexact Hrest
  hin c := by
    refine BI.Entails.trans (?_ : _ ⊢ (Pipeline.ΦA spec2 c : sProp 𝕄)) (h2.hi (V3 m D1) c)
    unfold Pipeline.ΦA
    iintro ⟨Hp, -, Hr⟩
    isplitl [Hr]; · iexact Hr
    iexact Hp
  hout c := by
    rw [Pipeline.ownSems0_none]
    refine BI.Entails.trans (h2.hu (V3 m D1) c) (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D1 D2) ((pdats m D1 D2 2 c).share_full fun w => h2.hq (V3 m D1) c w)
      (V3 m D1 c) (V4 m D1 D2 c) ((pdats m D1 D2 2 c).arrAt · cfg2.N) (hF2 m D1 D2 c) (hrest2 m D1 D2 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m D1 D2 2 c).owed (Fin.last _) = 0 from h2.ho (V3 m D1) c (Fin.last _)]
    iexact HO

/-! ## The program as its segments, and the run -/

/-- The four segments in order. -/
abbrev segs : List (Pipeline.Seg (pcfgs (F := F)) adm (pdats m D1 D2) () defs₀ 𝒱₀ L lv) :=
  [ .region (reg0 m D1 D2),
    .host (hseg hostOps1 hostOps1_sub hostOps1_fresh (W1 m)),
    .region (reg1 m D1 D2 h1),
    .region (reg2 m D1 D2 h2) ]

/-- The program is the run of the segments. -/
theorem main_run (c : Dev nD) : main (F := F) c = Pipeline.Seg.run (segs m D1 D2 h1 h2) :=
  (main_chain c).trans (by chain_rfl)

set_option backward.isDefEq.respectTransparency.types false in
/-- THE RUN: from any memory with zero counters every weakly fair execution of the program terminates, nothing
    faulting, and the final memory holds every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m D1 D2 c b) :=
  Pipeline.θ_run_regions_kit (pcfgs (F := F)) adm (pdats m D1 D2) () cellOf_inj emb₁ defs₀ 𝒱₀ L lv m ρ main
    (segs m D1 D2 h1 h2)
    (fun c Q => by rw [main_run m D1 D2 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m D1 D2)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m D1 D2 c b)
    (hfin := fun c s' => by
      iintro ⟨⟨Hh, -⟩, HSI⟩
      unfold StableHlo.held
      imodintro
      iapply (pointsTo_read_all (Pipeline.ucRefs τ sig) (fun b => (((c : Thread nD τ)).1, b)) (W4 m D1 D2 c) s')
      isplitl [Hh] <;> iassumption)
    (hQ := fun s h c => h c)

end Cert.KernelIdeal.H

end
-- ==== Proof.KI.Fold.lean ====
/-
  The boundary contents read back. No segment writes an argument array, so at the end each argument's buffer holds
  what it held at the launch; the result buffer holds what region 2's write-backs leave; and the buffers the
  regions read in between are named: the projection left by region 0, the two diagonals as one-column matrices (the
  reshapes' results), the product left by region 1.
-/
import proofs.«149786_j41644002902021_2_alg».proof.Proof.KI.Run

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)
variable (D1 : VT F → (c : Dev nD) → Dat τ (Elt F) Unit ℕ (UR sig nD τ) ℕ cfg1 c)
variable (D2 : VT F → (c : Dev nD) → Dat τ (Elt F) Unit ℕ (UR sig nD τ) ℕ cfg2 c)

/-- The references the two reshapes write. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩
/-- A buffer the reshapes do not write is as region 0 left it. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-! ## The reshapes' results and the projection, at region 1's entry -/

theorem W2_v0 (c : Dev nD) : W2 m c (Proc.devRef .tc main_v0) = (dat0 (V0 m) c).arrAt 2 cfg0.N :=
  (W2_of m c main_v0 (by decide)).trans (W1_arr m c 2)
theorem W2_v1 (c : Dev nD) : W2 m c (Proc.devRef .tc main_v1)
    = shapeCast S8192x1 (m ((c : Thread nD τ).loc main_arg3)) shapeCasts_S8192_S8192x1 := by
  show StableHlo.after hostOps1 (W1 m c) (Proc.devRef .tc main_v1) = _
  after_results
  rw [W1_of_ne m c main_arg3 (by decide)]
  rfl
theorem W2_v2 (c : Dev nD) : W2 m c (Proc.devRef .tc main_v2)
    = shapeCast S16384x1 (m ((c : Thread nD τ).loc main_arg4)) shapeCasts_S16384_S16384x1 := by
  show StableHlo.after hostOps1 (W1 m c) (Proc.devRef .tc main_v2) = _
  after_results
  rw [W1_of_ne m c main_arg4 (by decide)]
  rfl
theorem W2_arg2 (c : Dev nD) : W2 m c (Proc.devRef .tc main_arg2) = m ((c : Thread nD τ).loc main_arg2) :=
  (W2_of m c main_arg2 (by decide)).trans ((W1_of_ne m c main_arg2 (by decide)).trans rfl)

variable (h1 : Ok1 D1) (h2 : Ok2 D2)

/-! ## At region 2's entry -/

theorem W3_v3 (c : Dev nD) : W3 m D1 c (Proc.devRef .tc main_v3) = (D1 (V2 m) c).arrAt 3 cfg1.N := W3_arr m D1 c 3
theorem W3_v2 (c : Dev nD) : W3 m D1 c (Proc.devRef .tc main_v2)
    = shapeCast S16384x1 (m ((c : Thread nD τ).loc main_arg4)) shapeCasts_S16384_S16384x1 :=
  (W3_of_ne m D1 c main_v2 (by decide)).trans (W2_v2 m c)
include h1 in
theorem W3_arg2 (c : Dev nD) : W3 m D1 c (Proc.devRef .tc main_arg2) = m ((c : Thread nD τ).loc main_arg2) :=
  (W3_arr m D1 c 0).trans (((D1 (V2 m) c).arrAt_in 0 rfl _).trans ((h1.hA (V2 m) c 0).trans (W2_arg2 m c)))

/-! ## At the end -/

theorem W4_v4 (c : Dev nD) : W4 m D1 D2 c (Proc.devRef .tc main_v4) = (D2 (V3 m D1) c).arrAt 3 cfg2.N := W4_arr m D1 D2 c 3
theorem W4_arg0 (c : Dev nD) : W4 m D1 D2 c (Proc.devRef .tc main_arg0) = m ((c : Thread nD τ).loc main_arg0) :=
  (W4_of_ne m D1 D2 c main_arg0 (by decide)).trans <| (W3_of_ne m D1 c main_arg0 (by decide)).trans <| (W2_of m c main_arg0 (by decide)).trans <|
    (W1_arr m c 0).trans (((dat0 (V0 m) c).arrAt_in 0 rfl _).trans (A_eq0 (V0 m) c 0))
theorem W4_arg1 (c : Dev nD) : W4 m D1 D2 c (Proc.devRef .tc main_arg1) = m ((c : Thread nD τ).loc main_arg1) :=
  (W4_of_ne m D1 D2 c main_arg1 (by decide)).trans <| (W3_of_ne m D1 c main_arg1 (by decide)).trans <| (W2_of m c main_arg1 (by decide)).trans <|
    (W1_arr m c 1).trans (((dat0 (V0 m) c).arrAt_in 1 rfl _).trans (A_eq0 (V0 m) c 1))
include h1 h2 in
theorem W4_arg2 (c : Dev nD) : W4 m D1 D2 c (Proc.devRef .tc main_arg2) = m ((c : Thread nD τ).loc main_arg2) :=
  (W4_arr m D1 D2 c 0).trans (((D2 (V3 m D1) c).arrAt_in 0 rfl _).trans ((h2.hA (V3 m D1) c 0).trans (W3_arg2 m D1 h1 c)))
theorem W4_arg3 (c : Dev nD) : W4 m D1 D2 c (Proc.devRef .tc main_arg3) = m ((c : Thread nD τ).loc main_arg3) :=
  (W4_of_ne m D1 D2 c main_arg3 (by decide)).trans <| (W3_of_ne m D1 c main_arg3 (by decide)).trans <| (W2_of m c main_arg3 (by decide)).trans <|
    (W1_of_ne m c main_arg3 (by decide)).trans rfl
theorem W4_arg4 (c : Dev nD) : W4 m D1 D2 c (Proc.devRef .tc main_arg4) = m ((c : Thread nD τ).loc main_arg4) :=
  (W4_of_ne m D1 D2 c main_arg4 (by decide)).trans <| (W3_of_ne m D1 c main_arg4 (by decide)).trans <| (W2_of m c main_arg4 (by decide)).trans <|
    (W1_of_ne m c main_arg4 (by decide)).trans rfl

include h1 h2 in
/-- THE FRAME: every weakly fair execution terminates, nothing faulting, with each argument array as launched, and with
    the result array at what region 2's write-backs leave. -/
theorem run_frame_value (ρ : Dev nD → PrngReg) : θ_run defs (onTc (τ := τ) (main (F := F))) ⟨m, fun _ => 0, ρ⟩ (fun r => ∀ c : Dev nD,
      r.2.mem ((c.tc : Thread nD τ).loc main_v4) = (D2 (V3 m D1) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v4 (by decide))).trans (W4_v4 m D1 D2 c),
     (h c _ (mem_uc main_arg0 (by decide))).trans (W4_arg0 m D1 D2 c),
     (h c _ (mem_uc main_arg1 (by decide))).trans (W4_arg1 m D1 D2 c),
     (h c _ (mem_uc main_arg2 (by decide))).trans (W4_arg2 m D1 D2 h1 h2 c),
     (h c _ (mem_uc main_arg3 (by decide))).trans (W4_arg3 m D1 D2 c),
     (h c _ (mem_uc main_arg4 (by decide))).trans (W4_arg4 m D1 D2 c)⟩) (run_all m D1 D2 h1 h2 ρ)

include h1 h2 in
theorem run_frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_frame_value m D1 D2 h1 h2 ρ)

end Cert.KernelIdeal.H

end
-- ==== Proof.KI.Reg1Dat.lean ====
/-
  Region 1, an accumulating kernel: the pipeline's proof data and the invariant that carries the accumulator
  from one grid point to the next. The accumulator is a scratch buffer of the kernel's own; it is reset where the
  inner coordinate is 0, added to at every point, and read for the output block where the inner coordinate is the
  last. So the invariant before a point names the accumulator's contents as the running sum the point before left,
  and nothing at all before the first point. Everything is a function of the contents `V` the region finds in the
  buffers when it is entered, and holds at any float type.
-/
import proofs.«149786_j41644002902021_2_alg».proof.Proof.KI.Defs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- An input window's current staging buffer holds its block at every point, fetched there or not, for any proof
    data whose array is the region-entry contents and whose body leaves the block in place: the window is uncut
    and never idle, and where it is not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant -/

/-- The core's scoped buffers that are neither a staging buffer of this region nor its accumulator, each whole at
    some contents, and the generator register at some state: what the body never touches. -/
def rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r))

/-- The region invariant before the point at position `n`: the accumulator at some contents, which after a point
    (`n = k + 1`) are the running sum that point leaves, beside the untouched rest. Before the first point nothing
    is known of the accumulator, and nothing needs to be: the first point resets it. -/
def Phi1 (c : Dev nD) (n : ℕ) : sProp 𝕄 :=
  iprop((∃ d, ⌜∀ (k : ℕ) (hk : k < cfg1.N), n = k + 1 → d = acc1 V c k hk⌝ ∗ owns (c : Thread nD τ) scM1 fullShare d) ∗ rest1 (F := F) c)

/-- What the launch hands the region is the accumulator at anything beside the rest, -/
theorem PhiA1_split (c : Dev nD) :
    (Pipeline.ΦA spec1 c : sProp 𝕄) ⊢ iprop((∃ d, owns (c : Thread nD τ) scM1 fullShare d) ∗ rest1 (F := F) c) := by
  unfold Pipeline.ΦA rest1; rw [scopedRest1_eq]
  iintro ⟨⟨A0, A1, A2, A3, A4, ⟨%f, HS⟩, A6, A7, A8, A9, A10, A11, A12, A13⟩, Hg⟩
  isplitl [HS]
  · iexists f; rw [show scM1 = Memref.whole cc1_scratch0 from rfl, owns_whole]; iexact HS
  iframe

/-- and conversely. -/
theorem PhiA1_join (c : Dev nD) :
    iprop((∃ d, owns (c : Thread nD τ) scM1 fullShare d) ∗ rest1 (F := F) c) ⊢ (Pipeline.ΦA spec1 c : sProp 𝕄) := by
  unfold Pipeline.ΦA rest1; rw [scopedRest1_eq]
  simp only [scM1, owns_whole]
  iintro ⟨⟨%d, HS⟩, ⟨A0, A1, A2, A3, A4, A5, A6, A7, A8, A9, A10, A11, A12⟩, Hg⟩
  iframe
  iexists d; iexact HS

/-- The invariant gives up the accumulator at some contents, at any position; -/
theorem Phi1_any (c : Dev nD) (n : ℕ) :
    Phi1 V c n ⊢ iprop((∃ d, owns (c : Thread nD τ) scM1 fullShare d) ∗ rest1 (F := F) c) := by
  unfold Phi1
  iintro ⟨⟨%d, %hd, HS⟩, HR⟩
  isplitl [HS]
  · iexists d; iexact HS
  iexact HR

/-- after a point, at what the point before left; -/
theorem Phi1_pos (c : Dev nD) (t : Fin cfg1.N) (h : t.val ≠ 0) :
    Phi1 V c t.val ⊢ iprop(owns (c : Thread nD τ) scM1 fullShare (acc1 V c (t.val - 1) (Nat.lt_of_le_of_lt (Nat.sub_le _ _) t.isLt)) ∗ rest1 (F := F) c) := by
  unfold Phi1
  iintro ⟨⟨%d, %hd, HS⟩, HR⟩
  isplitl [HS]
  · rw [← hd (t.val - 1) (Nat.lt_of_le_of_lt (Nat.sub_le _ _) t.isLt) (by omega)]; iexact HS
  iexact HR

/-- and takes it back, after the point at position `t`, at what that point leaves. -/
theorem Phi1_intro (c : Dev nD) (t : Fin cfg1.N) (x : Vec F S2048x128 .f32) (hx : x = acc1 V c t.val t.isLt) :
    iprop(owns (c : Thread nD τ) scM1 fullShare x ∗ rest1 (F := F) c) ⊢ Phi1 V c (t.val + 1) := by
  unfold Phi1
  iintro ⟨HS, HR⟩
  isplitl [HS]
  · iexists x; isplitr
    · ipureintro; intro k hk e; obtain rfl : t.val = k := Nat.succ.inj e; exact hx
    iexact HS
  iexact HR

/-! ## The accumulator, case by case -/

theorem acc1_first (c : Dev nD) (t : Fin cfg1.N) (h0 : t.val % 8 = 0) :
    acc1 V c t.val t.isLt = k1_pay2 (iblk1 V c 0 t) (iblk1 V c 1 t) (k1_pay1 (F := F)) :=
  (acc1_eq V c t).trans (by rw [if_pos h0])

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) :=
  (acc1_eq V c t).trans (by rw [if_neg h0])

/-! ## The pipeline's proof data -/

/-- The proof data of the region on core `c`: the arrays as the region finds them; after the body at point `t`
    each input's buffer at its block and the output's at `out1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- The invariant at a point's start and end, restated at the point's position. -/
theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := by
  dsimp only [dat1]; simp only [Fin.val_succ]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Entering and leaving the region -/

/-- What the launch hands the region is the invariant before the first point: nothing is claimed of the accumulator there. -/
theorem hin1 (c : Dev nD) : Pipeline.ΦA spec1 c ⊢ (dat1 V c).Φ 0 := by
  rw [show (dat1 V c).Φ 0 = Phi1 V c 0 from rfl]
  refine (PhiA1_split c).trans ?_
  unfold Phi1
  iintro ⟨⟨%d, HS⟩, HR⟩
  isplitl [HS]
  · iexists d; isplitr
    · ipureintro; intro k hk e; exact absurd e (Nat.succ_ne_zero k).symm
    iexact HS
  iexact HR

/-- After the last point the invariant gives the launch's back: the accumulator's named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl]
  exact (Phi1_any V c _).trans (PhiA1_join c)

end Cert.KernelIdeal.H

end
-- ==== Proof.KI.Run1A.lean ====
/-
  Region 1's body at the first point of an accumulation (the accumulator is restarted, the output block is not
  written): on whole buffers held at contents `x0`, `x1`, `x2`, `xi3` and an accumulator holding anything, the body runs
  to the continuation with every window's buffer as it was and the accumulator at zero plus this point's product.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run1_A (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S8192x1 .f32) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x2048 .f32) (x1 : Vec F S2048x128 .f32) (x2 : Vec F S8192x1 .f32) (xi3 : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 (k1_pay1 (F := F)))) -∗ K ⟨⟩))
      ⊢ wp frame (wpE (defs₀ (F := F)) Variants.none c none) E (cc1__ey_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc1__ey_kernel_eq_skeleton]; unfold cc1__ey_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  sl_unfold_run_names
  rw [readAt_unread_unit_zero arg2 harg2 hz_b, readAt_unread_unit_zero arg3 harg3 hz_a,
    readCov_cons_unit_zero _ hz_a]

end Cert.KernelIdeal.H

end
-- ==== Proof.KI.Run1B.lean ====
/-
  Region 1's body at a middle point of an accumulation (the accumulator is neither restarted nor read out):
  on whole buffers held at contents `x0`, `x1`, `x2`, `xi3` and an accumulator held at `xs`, the body runs to the
  continuation with every window's buffer as it was and the accumulator at `xs` plus this point's product.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run1_B (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S8192x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x2048 .f32) (x1 : Vec F S2048x128 .f32) (x2 : Vec F S8192x1 .f32) (xi3 : Vec F S2048x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 xs)) -∗ K ⟨⟩))
      ⊢ wp frame (wpE (defs₀ (F := F)) Variants.none c none) E (cc1__ey_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc1__ey_kernel_eq_skeleton]; unfold cc1__ey_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.KernelIdeal.H

end
-- ==== Proof.KI.Run1C.lean ====
/-
  Region 1's body at the last point of an accumulation (the output block is written): on whole buffers held at
  contents `x0`, `x1`, `x2`, an output buffer holding anything and an accumulator held at `xs`, the body runs to the
  continuation with the inputs' buffers as they were, the accumulator at `xs` plus this point's product, and the output
  buffer at the diagonal's rows of this block times that finished accumulator.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run1_C (c : Dev nD) (E : Set ℕ) (i : grid1.Coords) (arg2 : Memref sig .tc .vmem S2048x2048 .f32) (harg2 : arg2.IsWhole) (arg3 : Memref sig .tc .vmem S2048x128 .f32) (harg3 : arg3.IsWhole) (arg4 : Memref sig .tc .vmem S8192x1 .f32) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x2048 .f32) (x1 : Vec F S2048x128 .f32) (x2 : Vec F S8192x1 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (View.ld x2 (rd1 i hc1)) (k1_pay2 x0 x1 xs)) ∗ owns (c : Thread nD τ) arg6 fullShare (k1_pay2 x0 x1 xs)) -∗ K ⟨⟩))
      ⊢ wp frame (wpE (defs₀ (F := F)) Variants.none c none) E (cc1__ey_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc1__ey_kernel_eq_skeleton]; unfold cc1__ey_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    on_goal 2 => iexact H3
    ipureintro
    refine (read_writes_cons_unit_zero _ _ hz_a _ _ _).trans ?_
    sl_unfold_run_names
    rw [readAt_unread arg4 harg4, readCov_cons_unit_zero _ hz_a, readAt_unread_unit_zero arg2 harg2 hz_b,
      readAt_unread_unit_zero arg3 harg3 hz_a, readAt_unread_unit_zero arg6 harg6 hz_a]
  iexists _; isplitr
  on_goal 2 => iexact HS
  ipureintro
  sl_unfold_run_names
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.KernelIdeal.H

end
-- ==== Proof.KI.Reg1.lean ====
/-
  Region 1: the body obligation. At every grid point the kernel body, run on the windows' current staging
  buffers and the accumulator, takes the invariant before the point to the invariant after it and leaves every
  window's buffer at what the proof data states: the body's triple in whichever of the three cases (the
  accumulation starts here; it continues; it ends here and the output block is stored) the point's position selects.
-/
import proofs.«149786_j41644002902021_2_alg».proof.Proof.KI.Reg1Dat
import proofs.«149786_j41644002902021_2_alg».proof.Proof.KI.Run1A
import proofs.«149786_j41644002902021_2_alg».proof.Proof.KI.Run1B
import proofs.«149786_j41644002902021_2_alg».proof.Proof.KI.Run1C

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's position says which of the three
    cases it is in. Where the accumulation starts the accumulator is handed over at anything and comes back at the
    point's product added to zero; elsewhere it is handed over at what the point before left and comes back with
    this point's product added. The output window is idle, and handed back as found, except at the last point of
    an accumulation, where it is stored with the diagonal's rows times the finished accumulator. The core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_castSucc, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    iintro ⟨HΦ, Ho, ⟨%d0, H0⟩, ⟨%d1, H1⟩, ⟨%d2, H2⟩, ⟨%d3, H3⟩⟩
    icases (Phi1_any V c t.val) $$ HΦ with ⟨⟨%ds, HS⟩, HR⟩
    iapply (run1_A c Set.univ (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HS]; · iexists ds; iexact HS
    iintro ⟨H0, H1, H2, H3, HS⟩
    isplitl [HS HR]
    · iapply (Phi1_intro V c t _ (acc1_first V c t h0).symm)
      isplitl [HS]; · iexact HS
      iexact HR
    isplitl [Ho]; · iexact Ho
    isplitl [H0]; · iexact H0
    isplitl [H1]; · iexact H1
    isplitl [H2]; · iexact H2
    iexists d3; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, out1_eq V c t hc1, acc1_next V c t h0]
      iintro ⟨HΦ, Ho, ⟨%d0, H0⟩, ⟨%d1, H1⟩, ⟨%d2, H2⟩, ⟨%d3, H3⟩⟩
      icases (Phi1_pos V c t hz) $$ HΦ with ⟨HS, HR⟩
      iapply (run1_C c Set.univ (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) (acc1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · iapply (Phi1_intro V c t _ (acc1_next V c t h0).symm)
        isplitl [HS]; · iexact HS
        iexact HR
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨HΦ, Ho, ⟨%d0, H0⟩, ⟨%d1, H1⟩, ⟨%d2, H2⟩, ⟨%d3, H3⟩⟩
      icases (Phi1_pos V c t hz) $$ HΦ with ⟨HS, HR⟩
      iapply (run1_B c Set.univ (grid1.coords t) (ms1_0 t) (hs1_0 t) (ms1_1 t) (hs1_1 t) (ms1_2 t) (hs1_2 t) (ms1_3 t) (hs1_3 t) scM1 (Memref.isWhole_whole _) hc0 hc1 (iblk1 V c 0 t) (iblk1 V c 1 t) (iblk1 V c 2 t) ((dat1 V c).before 3 t d3) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · iapply (Phi1_intro V c t _ (acc1_next V c t h0).symm)
        isplitl [HS]; · iexact HS
        iexact HR
      isplitl [Ho]; · iexact Ho
      isplitl [H0]; · iexact H0
      isplitl [H1]; · iexact H1
      isplitl [H2]; · iexact H2
      iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.Reg2Dat.lean ====
/-
  Region 2, an accumulating kernel: the pipeline's proof data and the invariant that carries the accumulator
  from one grid point to the next. The accumulator is a scratch buffer of the kernel's own; it is reset where the
  inner coordinate is 0, added to at every point, and read for the output block where the inner coordinate is the
  last. So the invariant before a point names the accumulator's contents as the running sum the point before left,
  and nothing at all before the first point. Everything is a function of the contents `V` the region finds in the
  buffers when it is entered, and holds at any float type.
-/
import proofs.«149786_j41644002902021_2_alg».proof.Proof.KI.Defs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- An input window's current staging buffer holds its block at every point, fetched there or not, for any proof
    data whose array is the region-entry contents and whose body leaves the block in place: the window is uncut
    and never idle, and where it is not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The invariant -/

/-- The core's scoped buffers that are neither a staging buffer of this region nor its accumulator, each whole at
    some contents, and the generator register at some state: what the body never touches. -/
def rest2 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

/-- The region invariant before the point at position `n`: the accumulator at some contents, which after a point
    (`n = k + 1`) are the running sum that point leaves, beside the untouched rest. Before the first point nothing
    is known of the accumulator, and nothing needs to be: the first point resets it. -/
def Phi2 (c : Dev nD) (n : ℕ) : sProp 𝕄 :=
  iprop((∃ d, ⌜∀ (k : ℕ) (hk : k < cfg2.N), n = k + 1 → d = acc2 V c k hk⌝ ∗ owns (c : Thread nD τ) scM2 fullShare d) ∗ rest2 (F := F) c)

/-- What the launch hands the region is the accumulator at anything beside the rest, -/
theorem PhiA2_split (c : Dev nD) :
    (Pipeline.ΦA spec2 c : sProp 𝕄) ⊢ iprop((∃ d, owns (c : Thread nD τ) scM2 fullShare d) ∗ rest2 (F := F) c) := by
  unfold Pipeline.ΦA rest2; rw [scopedRest2_eq]
  iintro ⟨⟨A0, A1, A2, A3, A4, A5, A6, A7, A8, A9, A10, A11, A12, ⟨%f, HS⟩⟩, Hg⟩
  isplitl [HS]
  · iexists f; rw [show scM2 = Memref.whole cc2_scratch0 from rfl, owns_whole]; iexact HS
  iframe

/-- and conversely. -/
theorem PhiA2_join (c : Dev nD) :
    iprop((∃ d, owns (c : Thread nD τ) scM2 fullShare d) ∗ rest2 (F := F) c) ⊢ (Pipeline.ΦA spec2 c : sProp 𝕄) := by
  unfold Pipeline.ΦA rest2; rw [scopedRest2_eq]
  simp only [scM2, owns_whole]
  iintro ⟨⟨%d, HS⟩, ⟨A0, A1, A2, A3, A4, A5, A6, A7, A8, A9, A10, A11, A12⟩, Hg⟩
  iframe
  iexists d; iexact HS

/-- The invariant gives up the accumulator at some contents, at any position; -/
theorem Phi2_any (c : Dev nD) (n : ℕ) :
    Phi2 V c n ⊢ iprop((∃ d, owns (c : Thread nD τ) scM2 fullShare d) ∗ rest2 (F := F) c) := by
  unfold Phi2
  iintro ⟨⟨%d, %hd, HS⟩, HR⟩
  isplitl [HS]
  · iexists d; iexact HS
  iexact HR

/-- after a point, at what the point before left; -/
theorem Phi2_pos (c : Dev nD) (t : Fin cfg2.N) (h : t.val ≠ 0) :
    Phi2 V c t.val ⊢ iprop(owns (c : Thread nD τ) scM2 fullShare (acc2 V c (t.val - 1) (Nat.lt_of_le_of_lt (Nat.sub_le _ _) t.isLt)) ∗ rest2 (F := F) c) := by
  unfold Phi2
  iintro ⟨⟨%d, %hd, HS⟩, HR⟩
  isplitl [HS]
  · rw [← hd (t.val - 1) (Nat.lt_of_le_of_lt (Nat.sub_le _ _) t.isLt) (by omega)]; iexact HS
  iexact HR

/-- and takes it back, after the point at position `t`, at what that point leaves. -/
theorem Phi2_intro (c : Dev nD) (t : Fin cfg2.N) (x : Vec F S2048x128 .f32) (hx : x = acc2 V c t.val t.isLt) :
    iprop(owns (c : Thread nD τ) scM2 fullShare x ∗ rest2 (F := F) c) ⊢ Phi2 V c (t.val + 1) := by
  unfold Phi2
  iintro ⟨HS, HR⟩
  isplitl [HS]
  · iexists x; isplitr
    · ipureintro; intro k hk e; obtain rfl : t.val = k := Nat.succ.inj e; exact hx
    iexact HS
  iexact HR

/-! ## The accumulator, case by case -/

theorem acc2_first (c : Dev nD) (t : Fin cfg2.N) (h0 : t.val % 4 = 0) :
    acc2 V c t.val t.isLt = k2_pay2 (iblk2 V c 0 t) (iblk2 V c 1 t) (k2_pay1 (F := F)) :=
  (acc2_eq V c t).trans (by rw [if_pos h0])

theorem acc2_next (c : Dev nD) (t : Fin cfg2.N) (h0 : ¬t.val % 4 = 0) :
    acc2 V c t.val t.isLt = k2_pay2 (iblk2 V c 0 t) (iblk2 V c 1 t) (acc2 V c (t.val - 1) (Nat.lt_of_le_of_lt (Nat.sub_le _ _) t.isLt)) :=
  (acc2_eq V c t).trans (by rw [if_neg h0])

/-! ## The pipeline's proof data -/

/-- The proof data of the region on core `c`: the arrays as the region finds them; after the body at point `t`
    each input's buffer at its block and the output's at `out2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- The invariant at a point's start and end, restated at the point's position. -/
theorem Phi2_castSucc (c : Dev nD) (t : Fin cfg2.N) : (dat2 V c).Φ t.castSucc = Phi2 V c t.val := by
  dsimp only [dat2]; simp only [Fin.coe_castSucc]
theorem Phi2_succ (c : Dev nD) (t : Fin cfg2.N) : (dat2 V c).Φ t.succ = Phi2 V c (t.val + 1) := by
  dsimp only [dat2]; simp only [Fin.val_succ]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## Entering and leaving the region -/

/-- What the launch hands the region is the invariant before the first point: nothing is claimed of the accumulator there. -/
theorem hin2 (c : Dev nD) : Pipeline.ΦA spec2 c ⊢ (dat2 V c).Φ 0 := by
  rw [show (dat2 V c).Φ 0 = Phi2 V c 0 from rfl]
  refine (PhiA2_split c).trans ?_
  unfold Phi2
  iintro ⟨⟨%d, HS⟩, HR⟩
  isplitl [HS]
  · iexists d; isplitr
    · ipureintro; intro k hk e; exact absurd e (Nat.succ_ne_zero k).symm
    iexact HS
  iexact HR

/-- After the last point the invariant gives the launch's back: the accumulator's named contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val from rfl]
  exact (Phi2_any V c _).trans (PhiA2_join c)

end Cert.KernelIdeal.H

end
-- ==== Proof.KI.Run2A.lean ====
/-
  Region 2's body at the first point of an accumulation (the accumulator is restarted, the output block is not
  written): on whole buffers held at contents `x0`, `x1`, `x2`, `xi3` and an accumulator holding anything, the body runs
  to the continuation with every window's buffer as it was and the accumulator at zero plus this point's product.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run2_A (c : Dev nD) (E : Set ℕ) (i : grid2.Coords) (arg2 : Memref sig .tc .vmem S2048x2048 .f32) (harg2 : arg2.IsWhole) (arg3 : Memref sig .tc .vmem S2048x128 .f32) (harg3 : arg3.IsWhole) (arg4 : Memref sig .tc .vmem S16384x1 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S2048x2048 .f32) (x1 : Vec F S2048x128 .f32) (x2 : Vec F S16384x1 .f32) (xi3 : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 (k2_pay1 (F := F)))) -∗ K ⟨⟩))
      ⊢ wp frame (wpE (defs₀ (F := F)) Variants.none c none) E (cc2__ny_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc2__ny_kernel_eq_skeleton]; unfold cc2__ny_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  sl_unfold_run_names
  rw [readAt_unread_unit_zero arg2 harg2 hz_b, readAt_unread_unit_zero arg3 harg3 hz_a,
    readCov_cons_unit_zero _ hz_a]

end Cert.KernelIdeal.H

end
-- ==== Proof.KI.Run2B.lean ====
/-
  Region 2's body at a middle point of an accumulation (the accumulator is neither restarted nor read out):
  on whole buffers held at contents `x0`, `x1`, `x2`, `xi3` and an accumulator held at `xs`, the body runs to the
  continuation with every window's buffer as it was and the accumulator at `xs` plus this point's product.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run2_B (c : Dev nD) (E : Set ℕ) (i : grid2.Coords) (arg2 : Memref sig .tc .vmem S2048x2048 .f32) (harg2 : arg2.IsWhole) (arg3 : Memref sig .tc .vmem S2048x128 .f32) (harg3 : arg3.IsWhole) (arg4 : Memref sig .tc .vmem S16384x1 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S2048x2048 .f32) (x1 : Vec F S2048x128 .f32) (x2 : Vec F S16384x1 .f32) (xi3 : Vec F S2048x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k2_pay2 x0 x1 xs)) -∗ K ⟨⟩))
      ⊢ wp frame (wpE (defs₀ (F := F)) Variants.none c none) E (cc2__ny_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc2__ny_kernel_eq_skeleton]; unfold cc2__ny_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  on_goal 2 => iexact HS
  ipureintro
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.KernelIdeal.H

end
-- ==== Proof.KI.Run2C.lean ====
/-
  Region 2's body at the last point of an accumulation (the output block is written): on whole buffers held at
  contents `x0`, `x1`, `x2`, an output buffer holding anything and an accumulator held at `xs`, the body runs to the
  continuation with the inputs' buffers as they were, the accumulator at `xs` plus this point's product, and the output
  buffer at the diagonal's rows of this block times that finished accumulator.
-/
import proofs.«149786_j41644002902021_2_alg».proof.Proof.KI.Defs
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-block loads and stores

A block's rectangle at zero offsets and of the block's own sizes is the whole block: a store through it, made last,
leaves its payload whatever the buffer held and whatever was stored before; a load through it reads the contents. -/

/-- What a store through the whole-block rectangle, made last, leaves: its payload. -/
private theorem read_writes_cons_unit_zero {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through any rectangle of a whole memref held at contents `X` reads `X` at the rectangle's indices. -/
private theorem readAt_unread {sg : RefSig} {κ : Kind} {sp : Space} {S : Shape} {e : EltTy} {Val : EltTy → Type}
    (m : Memref sg κ sp S e) (hm : m.IsWhole) (r : Rect S) (X : S.Idx → Val e) :
    m.view.readAt Val r.toLoadRect (hm.unread X) = View.ld X r := by
  rw [View.readAt_eq_ld, hm.read_unread]

/-- A load through the whole-block rectangle of a whole memref held at contents `X` reads `X`. -/
private theorem readAt_unread_unit_zero {sg : RefSig} {κ : Kind} {sp : Space} {S : Shape} {e : EltTy} {Val : EltTy → Type}
    (m : Memref sg κ sp S e) (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [readAt_unread, View.ld_unit_zero h]

/-- A load through the whole-block rectangle after a store through it reads the store's payload. -/
private theorem readCov_cons_unit_zero {sg : RefSig} {κ : Kind} {sp : Space} {S : Shape} {e : EltTy} {Val : EltTy → Type}
    [∀ e, Nonempty (Val e)] (v : View sg κ sp S e) {off : Fin S.rank → ℕ} (h : off = fun _ => 0)
    (inb inb' : ∀ a, off a + S.size a ≤ S.size a) (w : S.Idx → Val e) (L : List (View.Piece Val S e)) :
    v.readCov ((⟨Rect.unit off S.size inb, w⟩ : View.Piece Val S e) :: L) (Rect.unit off S.size inb').toLoadRect = w := by
  unfold View.readCov
  rw [View.readAt_eq_ld, read_writes_cons_unit_zero v _ h inb w L, View.ld_unit_zero h]

set_option maxHeartbeats 1000000 in
theorem run2_C (c : Dev nD) (E : Set ℕ) (i : grid2.Coords) (arg2 : Memref sig .tc .vmem S2048x2048 .f32) (harg2 : arg2.IsWhole) (arg3 : Memref sig .tc .vmem S2048x128 .f32) (harg3 : arg3.IsWhole) (arg4 : Memref sig .tc .vmem S16384x1 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S2048x2048 .f32) (x1 : Vec F S2048x128 .f32) (x2 : Vec F S16384x1 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k2_pay3 (View.ld x2 (rd2 i hc1)) (k2_pay2 x0 x1 xs)) ∗ owns (c : Thread nD τ) arg6 fullShare (k2_pay2 x0 x1 xs)) -∗ K ⟨⟩))
      ⊢ wp frame (wpE (defs₀ (F := F)) Variants.none c none) E (cc2__ny_kernel i arg2 harg2 arg3 harg3 arg4 harg4 arg5 harg5 arg6 harg6) K := by
  have hz_a : (![0, 0] : Fin S2048x128.rank → ℕ) = fun _ => 0 := by funext a; fin_cases a <;> rfl
  have hz_b : (![0, 0] : Fin S2048x2048.rank → ℕ) = fun _ => 0 := by funext a; fin_cases a <;> rfl
  simp only [cc2__ny_kernel_eq_skeleton]; unfold cc2__ny_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    on_goal 2 => iexact H3
    ipureintro
    refine (read_writes_cons_unit_zero _ _ hz_a _ _ _).trans ?_
    sl_unfold_run_names
    rw [readAt_unread arg4 harg4, readCov_cons_unit_zero _ hz_a, readAt_unread_unit_zero arg2 harg2 hz_b,
      readAt_unread_unit_zero arg3 harg3 hz_a, readAt_unread_unit_zero arg6 harg6 hz_a]
  iexists _; isplitr
  on_goal 2 => iexact HS
  ipureintro
  sl_unfold_run_names
  refine (read_writes_cons_unit_zero _ _ hz_a _ _ _).trans ?_
  rw [readAt_unread_unit_zero arg2 harg2 hz_b, readAt_unread_unit_zero arg3 harg3 hz_a,
    readAt_unread_unit_zero arg6 harg6 hz_a]

end Cert.KernelIdeal.H

end
-- ==== Proof.KI.Reg2.lean ====
/-
  Region 2: the body obligation. At every grid point the kernel body, run on the windows' current staging
  buffers and the accumulator, takes the invariant before the point to the invariant after it and leaves every
  window's buffer at what the proof data states: the body's triple in whichever of the three cases (the
  accumulation starts here; it continues; it ends here and the output block is stored) the point's position selects.
-/
import proofs.«149786_j41644002902021_2_alg».proof.Proof.KI.Reg2Dat
import proofs.«149786_j41644002902021_2_alg».proof.Proof.KI.Run2A
import proofs.«149786_j41644002902021_2_alg».proof.Proof.KI.Run2B
import proofs.«149786_j41644002902021_2_alg».proof.Proof.KI.Run2C

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the point's position says which of the three
    cases it is in. Where the accumulation starts the accumulator is handed over at anything and comes back at the
    point's product added to zero; elsewhere it is handed over at what the point before left and comes back with
    this point's product added. The output window is idle, and handed back as found, except at the last point of
    an accumulation, where it is stored with the diagonal's rows times the finished accumulator. The core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [Phi2_castSucc, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    iintro ⟨HΦ, Ho, ⟨%d0, H0⟩, ⟨%d1, H1⟩, ⟨%d2, H2⟩, ⟨%d3, H3⟩⟩
    icases (Phi2_any V c t.val) $$ HΦ with ⟨⟨%ds, HS⟩, HR⟩
    iapply (run2_A c Set.univ (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) ((dat2 V c).before 3 t d3) _)
    isplitl [H0]; · iexact H0
    isplitl [H1]; · iexact H1
    isplitl [H2]; · iexact H2
    isplitl [H3]; · iexact H3
    isplitl [HS]; · iexists ds; iexact HS
    iintro ⟨H0, H1, H2, H3, HS⟩
    isplitl [HS HR]
    · iapply (Phi2_intro V c t _ (acc2_first V c t h0).symm)
      isplitl [HS]; · iexact HS
      iexact HR
    isplitl [Ho]; · iexact Ho
    isplitl [H0]; · iexact H0
    isplitl [H1]; · iexact H1
    isplitl [H2]; · iexact H2
    iexists d3; iexact H3
  · have hz : t.val ≠ 0 := fun e => h0 (by rw [e])
    have hc0 : ¬cond2_0 (grid2.coords t) := fun h => h0 ((hcond2_0 t).mp h)
    by_cases h1 : t.val % 4 = 3
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3, out2_eq V c t hc1, acc2_next V c t h0]
      iintro ⟨HΦ, Ho, ⟨%d0, H0⟩, ⟨%d1, H1⟩, ⟨%d2, H2⟩, ⟨%d3, H3⟩⟩
      icases (Phi2_pos V c t hz) $$ HΦ with ⟨HS, HR⟩
      iapply (run2_C c Set.univ (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) (acc2 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR]
      · iapply (Phi2_intro V c t _ (acc2_next V c t h0).symm)
        isplitl [HS]; · iexact HS
        iexact HR
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨HΦ, Ho, ⟨%d0, H0⟩, ⟨%d1, H1⟩, ⟨%d2, H2⟩, ⟨%d3, H3⟩⟩
      icases (Phi2_pos V c t hz) $$ HΦ with ⟨HS, HR⟩
      iapply (run2_B c Set.univ (grid2.coords t) (ms2_0 t) (hs2_0 t) (ms2_1 t) (hs2_1 t) (ms2_2 t) (hs2_2 t) (ms2_3 t) (hs2_3 t) scM2 (Memref.isWhole_whole _) hc0 hc1 (iblk2 V c 0 t) (iblk2 V c 1 t) (iblk2 V c 2 t) ((dat2 V c).before 3 t d3) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR]
      · iapply (Phi2_intro V c t _ (acc2_next V c t h0).symm)
        isplitl [HS]; · iexact HS
        iexact HR
      isplitl [Ho]; · iexact Ho
      isplitl [H0]; · iexact H0
      isplitl [H1]; · iexact H1
      isplitl [H2]; · iexact H2
      iexists d3; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Ok.lean ====
/-
  The proof data of the two accumulating regions have what the launch asks of them: the arrays they start from are the
  contents the region finds, every window's share is whole, nothing is owed, the body keeps its obligation at every
  point, and the regions' invariants begin and end at the staging buffers' plain ownership. With them the whole program
  runs and leaves its five argument arrays as launched.
-/
import proofs.«149786_j41644002902021_2_alg».proof.Proof.KI.Fold
import proofs.«149786_j41644002902021_2_alg».proof.Proof.KI.Reg1
import proofs.«149786_j41644002902021_2_alg».proof.Proof.KI.Reg2

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Region 1's proof data meet the launch's requirements. -/
theorem ok1 : Ok1 (F := F) (fun V c => dat1 V c) :=
  ⟨fun V c w => A_eq1 V c w, fun _ _ _ => rfl, fun _ _ _ => rfl, fun _ _ _ => rfl, fun V c => body_obligation1 V c,
    fun V c => hin1 V c, fun V c => hout1 V c⟩

/-- Region 2's proof data meet the launch's requirements. -/
theorem ok2 : Ok2 (F := F) (fun V c => dat2 V c) :=
  ⟨fun V c w => A_eq2 V c w, fun _ _ _ => rfl, fun _ _ _ => rfl, fun _ _ _ => rfl, fun V c => body_obligation2 V c,
    fun V c => hin2 V c, fun V c => hout2 V c⟩

/-- Every fair execution of the program terminates, nothing faulting, with its five argument arrays as launched. -/
theorem frame_any (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_frame m _ _ ok1 ok2 ρ

end Cert.KernelIdeal.H

end
-- ==== Proof.Spec.lean ====
/-
  The mathematics both programs compute, on the extended reals, entry by entry.
  With x a 16384 × 256 matrix, w a 256 × 128 matrix, mt an 8192 × 16384 incidence matrix and dv, de two
  diagonals (of lengths 8192 and 16384):
    y  (n, o) = Σ_c x (n, c) · w (c, o)                          the projected node features
    ey (e, o) = dv e · Σ_n mt (e, n) · y (n, o)                  gathered on the hyperedges, scaled
    ny (n, o) = (½ · de n) · Σ_e mt (e, n) · ey (e, o)           scattered back to the nodes, scaled
  The factor ½ is kept as its 32-bit word: both programs spell the same word, so it is never evaluated.
  Only the order in which the long sums are taken differs between the two programs (tile by tile against all
  at once), and addition of extended reals is commutative and associative with 0 neutral: no entry needs to be finite.
-/
import Idealize.ShloMosaic.Lib.ValueIdx
import Idealize.ShloMosaic.PureOps.Ideal

noncomputable section

namespace Cert.Spec

open Idealize.ShloMosaic Idealize.ShloMosaic.ValueIdx
open scoped BigOperators

abbrev SX : Shape := ⟨2, ![16384, 256]⟩
abbrev SW : Shape := ⟨2, ![256, 128]⟩
abbrev SM : Shape := ⟨2, ![8192, 16384]⟩
abbrev SDv : Shape := ⟨1, ![8192]⟩
abbrev SDe : Shape := ⟨1, ![16384]⟩
abbrev SY : Shape := ⟨2, ![16384, 128]⟩
abbrev SE : Shape := ⟨2, ![8192, 128]⟩

/-- The factor one half, as the word both programs spell. -/
def half : EReal := Ideal.ofBits .f32 0x3F000000#32

/-- One entry of the projection x · w. -/
def yAt (x : SX.Idx → EReal) (w : SW.Idx → EReal) (n : Fin 16384) (o : Fin 128) : EReal :=
  ∑ c : Fin 256, x (ix2 n c) * w (ix2 c o)

/-- One entry of the scaled aggregation over the nodes of a hyperedge. -/
def eyAt (x : SX.Idx → EReal) (w : SW.Idx → EReal) (mt : SM.Idx → EReal) (dv : SDv.Idx → EReal)
    (e : Fin 8192) (o : Fin 128) : EReal :=
  dv (ix1 e) * ∑ n : Fin 16384, mt (ix2 e n) * yAt x w n o

/-- One entry of the result: the scaled aggregation over the hyperedges of a node. -/
def nyAt (x : SX.Idx → EReal) (w : SW.Idx → EReal) (mt : SM.Idx → EReal) (dv : SDv.Idx → EReal)
    (de : SDe.Idx → EReal) (n : Fin 16384) (o : Fin 128) : EReal :=
  (half * de (ix1 n)) * ∑ e : Fin 8192, mt (ix2 e n) * eyAt x w mt dv e o

/-- The three arrays, whole. -/
def Y (x : SX.Idx → EReal) (w : SW.Idx → EReal) : SY.Idx → EReal := fun i => yAt x w (i 0) (i 1)
def EY (x : SX.Idx → EReal) (w : SW.Idx → EReal) (mt : SM.Idx → EReal) (dv : SDv.Idx → EReal) : SE.Idx → EReal :=
  fun i => eyAt x w mt dv (i 0) (i 1)
def NY (x : SX.Idx → EReal) (w : SW.Idx → EReal) (mt : SM.Idx → EReal) (dv : SDv.Idx → EReal)
    (de : SDe.Idx → EReal) : SY.Idx → EReal := fun i => nyAt x w mt dv de (i 0) (i 1)

theorem Y_ix2 (x : SX.Idx → EReal) (w : SW.Idx → EReal) (n : Fin 16384) (o : Fin 128) :
    Y x w (ix2 n o) = yAt x w n o := rfl
theorem EY_ix2 (x : SX.Idx → EReal) (w : SW.Idx → EReal) (mt : SM.Idx → EReal) (dv : SDv.Idx → EReal)
    (e : Fin 8192) (o : Fin 128) : EY x w mt dv (ix2 e o) = eyAt x w mt dv e o := rfl
theorem NY_ix2 (x : SX.Idx → EReal) (w : SW.Idx → EReal) (mt : SM.Idx → EReal) (dv : SDv.Idx → EReal)
    (de : SDe.Idx → EReal) (n : Fin 16384) (o : Fin 128) : NY x w mt dv de (ix2 n o) = nyAt x w mt dv de n o := rfl

end Cert.Spec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibTDot.lean ====
/-
  The transpose of a matrix times a matrix, read at an index, at the ideal values: for the dimension numbers
  "contract the left operand's axis 0 with the right operand's axis 0, no batch axis" — the record a product
  Aᵀ · B of a k × m and a k × n matrix prints — the matrix unit's product into a zero accumulator and the
  host's `dot_general` are both, at (a, b), the sum over c of A (c, a) * B (c, b).
-/
import Idealize.ShloMosaic.Lib.ValueIdx
import Idealize.ShloMosaic.PureOps.Ideal.Laws

noncomputable section

namespace Cert.LibTDot

open Idealize.ShloMosaic Idealize.ShloMosaic.ValueIdx
open scoped BigOperators

variable {m k n : Nat} {φ₁ φ₂ : FTy}

/-- The record: both contracting axes are axis 0, the kept axes are each operand's axis 1, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

theorem lhsIdx_eq (w : DotDims.WF ⟨2, ![k, m]⟩ ⟨2, ![k, n]⟩ ⟨2, ![m, n]⟩ [0] [0] [1] [1] [] [])
    (a : Fin m) (b : Fin n) (c : Fin k) :
    (dims w).lhsIdx (ix2 a b) ((contrEquiv1 (dims w) k rfl rfl).symm c) = ix2 c a := by
  have c2 := contrEquiv1_symm_val (dims w) k rfl rfl c
  funext ax; apply Fin.ext
  match ax with
  | ⟨0, _⟩ => simp [DotDims.lhsIdx]; exact c2
  | ⟨1, _⟩ => simp [DotDims.lhsIdx]; rfl

theorem rhsIdx_eq (w : DotDims.WF ⟨2, ![k, m]⟩ ⟨2, ![k, n]⟩ ⟨2, ![m, n]⟩ [0] [0] [1] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The matrix unit's product Aᵀ · B into a zero accumulator at (a, b): the sum over the shared row index. -/
theorem matmul_zero_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 c a) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The matrix unit's product Aᵀ · B added to an accumulator, at (a, b): the accumulator's entry plus the sum. -/
theorem matmul_acc_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (acc : FVec Ideal ⟨2, ![m, n]⟩ .f32) (a : Fin m) (b : Fin n) :
    matmul (dims w) prec A B acc (ix2 a b) = acc (ix2 a b) + ∑ c : Fin k, A (ix2 c a) * B (ix2 c b) := by
  show FloatOps.matmul _ prec A B _ (ix2 a b) = _
  rw [Ideal.matmul_apply, ← Equiv.sum_comp (contrEquiv1 (dims w) k rfl rfl).symm]
  refine congrArg (acc (ix2 a b) + ·) (Finset.sum_congr rfl fun c _ => ?_)
  rw [lhsIdx_eq, rhsIdx_eq]

/-- The host's product Aᵀ · B at (a, b): the same sum. -/
theorem dotGeneral_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    Host.dotGeneral (dims w) prec A B (ix2 a b) = ∑ c : Fin k, A (ix2 c a) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibTDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Pay.lean ====
/-
  The arithmetic of the three kernels' bodies, read at an entry (p, q) of a 2048 × 128 tile, on the extended reals.
  A change of float format is the identity there, a cast to the same shape is the identity, a product into a zero
  accumulator is the plain sum over the contracted coordinate, and a column spread over the 128 lanes reads its row's entry.
    first kernel:   the tile of x · w;
    second kernel:  the accumulator starts at 0, gains Σ_j mt (p, j) · y (j, q) per column tile, and is scaled by dv p at the end;
    third kernel:   the accumulator starts at 0, gains Σ_j mt (j, p) · ey (j, q) per row tile (the transposed product),
                    and is scaled by ½ · de p at the end.
-/
import proofs.«149786_j41644002902021_2_alg».proof.Proof.Gen.KernelIdeal.Skeleton
import proofs.«149786_j41644002902021_2_alg».proof.Proof.Spec
import proofs.«149786_j41644002902021_2_alg».proof.Proof.LibDot
import proofs.«149786_j41644002902021_2_alg».proof.Proof.LibTDot
import proofs.«149786_j41644002902021_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The projection -/

/-- The first kernel's tile at (p, q): the row of x against the column of w. -/
theorem k0_pay1_apply (v0 : Vec Ideal S2048x256 .f32) (v1 : Vec Ideal S256x128 .f32) (p : Fin 2048) (q : Fin 128) :
    k0_pay1 v0 v1 (ix2 p q) = ∑ c : Fin 256, v0 (ix2 p c) * v1 (ix2 c q) := by
  unfold k0_pay1
  exact Cert.LibDot.matmul_zero_apply (m := 2048) (k := 256) (n := 128)
    Cert.KernelIdeal.Facts₀.dot_S2048x256_S256x128_S2048x128_1_0_0_1_n_n_wf none v0 v1 p q

/-! ## The aggregation over the nodes -/

/-- The second kernel's accumulator starts at zero. -/
theorem k1_pay1_apply (p : Fin 2048) (q : Fin 128) : k1_pay1 (F := Ideal) (ix2 p q) = 0 := by
  unfold k1_pay1
  rw [shapeCast_self, broadcast_apply]
  exact Ideal.ofBits_zero_f32

/-- One column tile's contribution is added to the accumulator. -/
theorem k1_pay2_apply (v3 : Vec Ideal S2048x2048 .f32) (v5 v8 : Vec Ideal S2048x128 .f32) (p : Fin 2048) (q : Fin 128) :
    k1_pay2 v3 v5 v8 (ix2 p q) = v8 (ix2 p q) + ∑ j : Fin 2048, v3 (ix2 p j) * v5 (ix2 j q) := by
  unfold k1_pay2
  simp only [shapeCast_self]
  rw [addf_apply]
  refine congrArg (v8 (ix2 p q) + ·) ?_
  refine (Cert.LibDot.matmul_zero_apply (m := 2048) (k := 2048) (n := 128)
    Cert.KernelIdeal.Facts₀.dot_S2048x2048_S2048x128_S2048x128_1_0_0_1_n_n_wf none _ _ p q).trans ?_
  exact Finset.sum_congr rfl fun _ _ => rfl

/-- At the last column tile the accumulator is scaled by the hyperedge's weight. -/
theorem k1_pay3_apply (v20 : Vec Ideal S2048x1 .f32) (v22 : Vec Ideal S2048x128 .f32) (p : Fin 2048) (q : Fin 128) :
    k1_pay3 v20 v22 (ix2 p q) = v20 (ix2 p (0 : Fin 1)) * v22 (ix2 p q) := by
  unfold k1_pay3
  rw [mulf_apply, broadcastTo_a1_ab_apply, shapeCast_self]

/-! ## The aggregation over the hyperedges -/

/-- The third kernel's accumulator starts at zero. -/
theorem k2_pay1_apply (p : Fin 2048) (q : Fin 128) : k2_pay1 (F := Ideal) (ix2 p q) = 0 := by
  unfold k2_pay1
  rw [shapeCast_self, broadcast_apply]
  exact Ideal.ofBits_zero_f32

/-- One row tile's contribution, the transposed product, is added to the accumulator. -/
theorem k2_pay2_apply (v3 : Vec Ideal S2048x2048 .f32) (v5 v9 : Vec Ideal S2048x128 .f32) (p : Fin 2048) (q : Fin 128) :
    k2_pay2 v3 v5 v9 (ix2 p q) = v9 (ix2 p q) + ∑ j : Fin 2048, v3 (ix2 j p) * v5 (ix2 j q) := by
  unfold k2_pay2
  simp only [shapeCast_self]
  rw [addf_apply]
  refine congrArg (v9 (ix2 p q) + ·) ?_
  refine (Cert.LibTDot.matmul_zero_apply (m := 2048) (k := 2048) (n := 128)
    Cert.KernelIdeal.Facts₀.dot_S2048x2048_S2048x128_S2048x128_0_0_1_1_n_n_wf none _ _ p q).trans ?_
  exact Finset.sum_congr rfl fun _ _ => rfl

/-- At the last row tile the accumulator is scaled by one half of the node's weight. -/
theorem k2_pay3_apply (v20 : Vec Ideal S2048x1 .f32) (v24 : Vec Ideal S2048x128 .f32) (p : Fin 2048) (q : Fin 128) :
    k2_pay3 v20 v24 (ix2 p q) = (Cert.Spec.half * v20 (ix2 p (0 : Fin 1))) * v24 (ix2 p q) := by
  unfold k2_pay3
  rw [mulf_apply, broadcastTo_a1_ab_apply, mulf_apply, broadcast_apply, shapeCast_self]
  rfl

end Cert.KernelIdeal.Pay

end
-- ==== Proof.SpecOf.lean ====
/-
  The two aggregation stages as functions of whole arrays, with the diagonal weights held as one-column matrices:
    eyOf mt y dvc (e, o) = dvc (e, 0) · Σ_n mt (e, n) · y (n, o)
    nyOf mt ey dec (n, o) = (½ · dec (n, 0)) · Σ_e mt (e, n) · ey (e, o)
  Composed over the projection Y x w, with the columns holding the diagonals dv and de, they give the array NY.
-/
import proofs.«149786_j41644002902021_2_alg».proof.Proof.Spec

noncomputable section

namespace Cert.Spec

open Idealize.ShloMosaic Idealize.ShloMosaic.ValueIdx
open scoped BigOperators

/-- The aggregation over the nodes of each hyperedge, scaled by the column of hyperedge weights. -/
def eyOf (mt : SM.Idx → EReal) (y : SY.Idx → EReal) (dvc : (⟨2, ![8192, 1]⟩ : Shape).Idx → EReal) : SE.Idx → EReal :=
  fun i => dvc (ix2 (i 0) (0 : Fin 1)) * ∑ n : Fin 16384, mt (ix2 (i 0) n) * y (ix2 n (i 1))

/-- The aggregation over the hyperedges of each node, scaled by one half of the column of node weights. -/
def nyOf (mt : SM.Idx → EReal) (ey : SE.Idx → EReal) (dec : (⟨2, ![16384, 1]⟩ : Shape).Idx → EReal) : SY.Idx → EReal :=
  fun i => (half * dec (ix2 (i 0) (0 : Fin 1))) * ∑ e : Fin 8192, mt (ix2 e (i 0)) * ey (ix2 e (i 1))

theorem eyOf_ix2 (mt : SM.Idx → EReal) (y : SY.Idx → EReal) (dvc : (⟨2, ![8192, 1]⟩ : Shape).Idx → EReal)
    (e : Fin 8192) (o : Fin 128) :
    eyOf mt y dvc (ix2 e o) = dvc (ix2 e (0 : Fin 1)) * ∑ n : Fin 16384, mt (ix2 e n) * y (ix2 n o) := rfl

theorem nyOf_ix2 (mt : SM.Idx → EReal) (ey : SE.Idx → EReal) (dec : (⟨2, ![16384, 1]⟩ : Shape).Idx → EReal)
    (n : Fin 16384) (o : Fin 128) :
    nyOf mt ey dec (ix2 n o) = (half * dec (ix2 n (0 : Fin 1))) * ∑ e : Fin 8192, mt (ix2 e n) * ey (ix2 e o) := rfl

/-- With the columns holding the two diagonals, the composed stages are the specification's array. -/
theorem NY_eq (x : SX.Idx → EReal) (w : SW.Idx → EReal) (mt : SM.Idx → EReal) (dv : SDv.Idx → EReal) (de : SDe.Idx → EReal)
    (dvc : (⟨2, ![8192, 1]⟩ : Shape).Idx → EReal) (dec : (⟨2, ![16384, 1]⟩ : Shape).Idx → EReal)
    (hdv : ∀ e : Fin 8192, dvc (ix2 e (0 : Fin 1)) = dv (ix1 e)) (hde : ∀ n : Fin 16384, dec (ix2 n (0 : Fin 1)) = de (ix1 n)) :
    nyOf mt (eyOf mt (Y x w) dvc) dec = NY x w mt dv de := by
  funext i
  obtain ⟨n, o, rfl⟩ : ∃ (n : Fin 16384) (o : Fin 128), i = ix2 n o := ⟨i 0, i 1, eq_ix2 i⟩
  rw [nyOf_ix2, NY_ix2, hde]
  unfold nyAt
  refine congrArg ((half * de (ix1 n)) * ·) (Finset.sum_congr rfl fun e _ => ?_)
  rw [eyOf_ix2, hdv]
  rfl

end Cert.Spec

end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.Algebra.lean ====
/-
  An accumulator that starts at zero and gains one tile's sum per step holds, after step k, the sum of the first
  (k + 1) tiles' terms; after the last of T steps it holds the whole sum over the T · B positions. Stated in any
  commutative additive monoid: only associativity and the neutral zero of addition are used, so on the extended reals no term needs to be finite.
-/
import proofs.«149786_j41644002902021_2_alg».proof.Proof.LibSums

noncomputable section

namespace Cert.Algebra

open scoped BigOperators

variable {M : Type} [AddCommMonoid M]

/-- After step k the accumulator is the sum of the terms at the positions below (k + 1) · B. -/
theorem acc_eq_sum (T B : ℕ) (g : ℕ → M) (a : ℕ → M)
    (h0 : a 0 = 0 + ∑ j : Fin B, g j.val)
    (hs : ∀ k, k + 1 < T → a (k + 1) = a k + ∑ j : Fin B, g ((k + 1) * B + j.val)) :
    ∀ k, k < T → a k = ∑ v ∈ Finset.range ((k + 1) * B), g v := by
  intro k
  induction k with
  | zero =>
    intro _
    rw [h0, zero_add, Nat.zero_add, Nat.one_mul]
    exact (Finset.sum_range g).symm
  | succ k ih =>
    intro hk
    rw [hs k hk, ih (by omega), Nat.succ_mul (k + 1) B, Finset.sum_range_add]
    congr 1
    exact (Finset.sum_range (fun x => g ((k + 1) * B + x))).symm

/-- After the last of T steps the accumulator is the sum over all N = T · B positions. -/
theorem acc_last (T B N : ℕ) (hT : 0 < T) (hN : T * B = N) (g : ℕ → M) (a : ℕ → M)
    (h0 : a 0 = 0 + ∑ j : Fin B, g j.val)
    (hs : ∀ k, k + 1 < T → a (k + 1) = a k + ∑ j : Fin B, g ((k + 1) * B + j.val)) :
    a (T - 1) = ∑ v : Fin N, g v.val := by
  subst hN
  rw [acc_eq_sum T B g a h0 hs (T - 1) (by omega), Nat.sub_add_cancel hT]
  exact Finset.sum_range g

end Cert.Algebra

end
-- ==== Proof.KI.Val0.lean ====
/-
  Region 0 as one function of what it finds: each of its 8 points writes back the product of a 2048-row tile of x
  with the whole weight matrix, and the 8 tiles cover the 16384 rows; so the projected array ends holding, at every
  (n, o), the sum over c of x (n, c) · w (c, o).
-/
import proofs.«149786_j41644002902021_2_alg».proof.Proof.KI.Defs
import proofs.«149786_j41644002902021_2_alg».proof.Proof.KI.Reg0
import proofs.«149786_j41644002902021_2_alg».proof.Proof.Pay
import proofs.«149786_j41644002902021_2_alg».proof.Proof.SpecOf
import proofs.«149786_j41644002902021_2_alg».proof.Proof.Algebra
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

/-- The block indices over the grid: the tiles of x and of the result move with the point, the weight matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays the region finds. -/
theorem flushed0_eq (c : Dev nD) (t : Fin cfg0.N) :
    (dat0 V c).flushed 2 t = ((cfg0.win 2).blk t).view.read (Elt Ideal) (Cert.Spec.Y (V c main_arg0) (V c main_arg1)) := by
  show (cfg0.win 2).cut (grid0.coords t) ((dat0 V c).after 2 t) = _
  rw [after0_2]
  obtain ⟨e0, e1, e2, e3, e4, e5⟩ := idx_facts0 t
  funext j
  obtain ⟨p, q, rfl⟩ : ∃ (p : Fin 2048) (q : Fin 128), j = ix2 p q := ⟨j 0, j 1, eq_ix2 j⟩
  show k0_pay1 (iblk0 V c 0 t) (iblk0 V c 1 t) (ix2 p q)
    = Cert.Spec.Y (V c main_arg0) (V c main_arg1) (((cfg0.win 2).blk t).view.emb (ix2 p q))
  refine (Cert.KernelIdeal.Pay.k0_pay1_apply (iblk0 V c 0 t) (iblk0 V c 1 t) p q).trans ?_
  show _ = Cert.Spec.yAt (V c main_arg0) (V c main_arg1) ((((cfg0.win 2).blk t).view.emb (ix2 p q)) 0)
    ((((cfg0.win 2).blk t).view.emb (ix2 p q)) 1)
  unfold Cert.Spec.yAt
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 256 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [show iblk0 V c 0 t (ix2 p k) = V c main_arg0 (ix2 ((((cfg0.win 2).blk t).view.emb (ix2 p q)) 0) k) from
      congrArg (V c main_arg0) h0,
    show iblk0 V c 1 t (ix2 k q) = V c main_arg1 (ix2 k ((((cfg0.win 2).blk t).view.emb (ix2 p q)) 1)) from
      congrArg (V c main_arg1) h1]

/-- An index of the result is in point t's block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v0).slice (win0_2.rect t)).set ↔ _
  rw [View.set_slice_whole, Rect.mem_set_unit]
  exact Iff.rfl

/-- Row r of the result lies in the block of point r / 2048. -/
theorem cover0 (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := N_0
  let t : Fin cfg0.N := ⟨(i 0).val / 2048, by rw [hN]; omega⟩
  obtain ⟨e0, e1, e2, e3, e4, e5⟩ := idx_facts0 t
  have ht : t.val = (i 0).val / 2048 := rfl
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- The projected array after region 0: the projection of the arrays the region found. -/
theorem final0 (c : Dev nD) : (dat0 (F := Ideal) V c).arrAt 2 cfg0.N = Cert.Spec.Y (V c main_arg0) (V c main_arg1) :=
  (dat0 V c).arrAt_eq_of_cover 2 (Cert.Spec.Y (V c main_arg0) (V c main_arg1)) (fun t _ => flushed0_eq V c t) cover0

end Cert.KernelIdeal.H

end
-- ==== Proof.KI.Val1.lean ====
/-
  Region 1 as one function of what it finds. Its 32 points run over 4 row blocks of hyperedges and, within each, over
  8 column tiles of nodes. The accumulator restarts at the first tile of a row block and gains one tile's sum of
  mt (e, n) · y (n, o) per point, so after the 8th tile it holds the whole sum over the 16384 nodes (only the order of
  the additions differs, and addition is associative with 0 neutral); there the block written back is that sum times
  the hyperedge's weight. The 4 blocks cover the 8192 rows.
-/
import proofs.«149786_j41644002902021_2_alg».proof.Proof.KI.Defs
import proofs.«149786_j41644002902021_2_alg».proof.Proof.Pay
import proofs.«149786_j41644002902021_2_alg».proof.Proof.SpecOf
import proofs.«149786_j41644002902021_2_alg».proof.Proof.Algebra
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

/-- One term of a hyperedge's sum over the nodes, at positions given as natural numbers (zero outside the arrays). -/
def term1 (mt : Cert.Spec.SM.Idx → EReal) (y : Cert.Spec.SY.Idx → EReal) (r : ℕ) (q : Fin 128) (v : ℕ) : EReal :=
  if h : r < 8192 ∧ v < 16384 then mt (ix2 ⟨r, h.1⟩ ⟨v, h.2⟩) * y (ix2 ⟨v, h.2⟩ q) else 0

theorem term1_eq (mt : Cert.Spec.SM.Idx → EReal) (y : Cert.Spec.SY.Idx → EReal) (r : Fin 8192) (q : Fin 128) (v : Fin 16384) :
    term1 mt y r.val q v.val = mt (ix2 r v) * y (ix2 v q) := by
  unfold term1; rw [dif_pos ⟨r.isLt, v.isLt⟩]

/-- The block indices and the diagonal's row offset over the grid: point t is tile t % 8 of row block t / 8. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ k1_off1 (grid1.coords t) (0 : Fin 2) = 2048 * (t.val / 8) ∧ k1_off1 (grid1.coords t) (1 : Fin 2) = 0 :=
  (by decide +kernel : ∀ t : Fin grid1.N, _)

/-- The accumulator does not depend on how its position is written. -/
theorem acc1_congr (c : Dev nD) (u : ℕ) (hu : u < cfg1.N) (u' : ℕ) (hu' : u' < cfg1.N) (e : u = u') :
    acc1 V c u hu = acc1 V c u' hu' := by subst e; rfl

/-- One point's step, entry by entry: the point's tile sum is added to zero at the first tile of a row block and to what
    the point before left elsewhere. -/
theorem acc1_step (c : Dev nD) (n : ℕ) (hn : n < cfg1.N) (p : Fin 2048) (q : Fin 128) :
    acc1 V c n hn (ix2 p q)
      = (if n % 8 = 0 then (0 : EReal) else acc1 V c (n - 1) (Nat.lt_of_le_of_lt (Nat.sub_le _ _) hn) (ix2 p q))
        + ∑ j : Fin 2048, term1 (V c main_arg2) (V c main_v0) (2048 * (n / 8) + p.val) q (n % 8 * 2048 + j.val) := by
  have hN : cfg1.N = 32 := N_1
  have hn' : n < 32 := by rw [← hN]; exact hn
  obtain ⟨e0, e1, e2, e3, -, -, -, -, -, -⟩ := idx_facts1 ⟨n, hn⟩
  have e0' : win1_0.index ⟨n, hn⟩ (0 : Fin 2) = n / 8 := e0
  have e1' : win1_0.index ⟨n, hn⟩ (1 : Fin 2) = n % 8 := e1
  have e2' : win1_1.index ⟨n, hn⟩ (0 : Fin 2) = n % 8 := e2
  have e3' : win1_1.index ⟨n, hn⟩ (1 : Fin 2) = 0 := e3
  refine (congrFun (acc1_eq V c ⟨n, hn⟩) (ix2 p q)).trans ?_
  refine (Cert.KernelIdeal.Pay.k1_pay2_apply _ _ _ p q).trans ?_
  refine congrArg₂ (fun a b : EReal => a + b) ?_ ?_
  · show (if n % 8 = 0 then k1_pay1 (F := Ideal) else acc1 V c (n - 1) _) (ix2 p q) = _
    by_cases h8 : n % 8 = 0
    · rw [if_pos h8, if_pos h8]; exact Cert.KernelIdeal.Pay.k1_pay1_apply p q
    · rw [if_neg h8, if_neg h8]
  · refine Finset.sum_congr rfl fun j _ => ?_
    have hp : p.val < 2048 := p.isLt
    have hj : j.val < 2048 := j.isLt
    have hq : q.val < 128 := q.isLt
    have hr : 2048 * (n / 8) + p.val < 8192 := by omega
    have hv : n % 8 * 2048 + j.val < 16384 := by omega
    unfold term1
    rw [dif_pos ⟨hr, hv⟩]
    have h0 : ((cfg1.win 0).blk ⟨n, hn⟩).view.emb (ix2 p j) = ix2 ⟨2048 * (n / 8) + p.val, hr⟩ ⟨n % 8 * 2048 + j.val, hv⟩ := by
      funext a; apply Fin.ext
      match a with
      | ⟨0, _⟩ => show win1_0.index ⟨n, hn⟩ (0 : Fin 2) * 2048 + 1 * p.val = 2048 * (n / 8) + p.val; omega
      | ⟨1, _⟩ => show win1_0.index ⟨n, hn⟩ (1 : Fin 2) * 2048 + 1 * j.val = n % 8 * 2048 + j.val; omega
    have h1 : ((cfg1.win 1).blk ⟨n, hn⟩).view.emb (ix2 j q) = ix2 ⟨n % 8 * 2048 + j.val, hv⟩ q := by
      funext a; apply Fin.ext
      match a with
      | ⟨0, _⟩ => show win1_1.index ⟨n, hn⟩ (0 : Fin 2) * 2048 + 1 * j.val = n % 8 * 2048 + j.val; omega
      | ⟨1, _⟩ => show win1_1.index ⟨n, hn⟩ (1 : Fin 2) * 128 + 1 * q.val = q.val; omega
    rw [show iblk1 V c 0 ⟨n, hn⟩ (ix2 p j) = V c main_arg2 (ix2 ⟨2048 * (n / 8) + p.val, hr⟩ ⟨n % 8 * 2048 + j.val, hv⟩) from
        congrArg (V c main_arg2) h0,
      show iblk1 V c 1 ⟨n, hn⟩ (ix2 j q) = V c main_v0 (ix2 ⟨n % 8 * 2048 + j.val, hv⟩ q) from congrArg (V c main_v0) h1]

/-- The accumulator's entry (p, q) along the 8 points of row block i (zero past the grid). -/
def accRow1 (c : Dev nD) (i : ℕ) (p : Fin 2048) (q : Fin 128) (k : ℕ) : EReal :=
  if hk : 8 * i + k < cfg1.N then acc1 V c (8 * i + k) hk (ix2 p q) else 0

/-- After the last tile of row block i the accumulator holds the whole sum over the nodes. -/
theorem acc1_last (c : Dev nD) (i : ℕ) (hi : i < 4) (p : Fin 2048) (q : Fin 128) (h : 8 * i + 7 < cfg1.N) :
    acc1 V c (8 * i + 7) h (ix2 p q)
      = ∑ v : Fin 16384, term1 (V c main_arg2) (V c main_v0) (2048 * i + p.val) q v.val := by
  have hN : cfg1.N = 32 := N_1
  have h0 : accRow1 V c i p q 0 = 0 + ∑ j : Fin 2048, term1 (V c main_arg2) (V c main_v0) (2048 * i + p.val) q j.val := by
    have hk : 8 * i + 0 < cfg1.N := by rw [hN]; omega
    unfold accRow1
    rw [dif_pos hk, acc1_step V c (8 * i + 0) hk p q]
    have e1 : (8 * i + 0) % 8 = 0 := by omega
    have e2 : (8 * i + 0) / 8 = i := by omega
    rw [if_pos e1, e1, e2]
    simp only [Nat.zero_mul, Nat.zero_add]
  have hs : ∀ k, k + 1 < 8 → accRow1 V c i p q (k + 1) = accRow1 V c i p q k
      + ∑ j : Fin 2048, term1 (V c main_arg2) (V c main_v0) (2048 * i + p.val) q ((k + 1) * 2048 + j.val) := by
    intro k hk
    have hk1 : 8 * i + (k + 1) < cfg1.N := by rw [hN]; omega
    have hk0 : 8 * i + k < cfg1.N := by rw [hN]; omega
    unfold accRow1
    rw [dif_pos hk1, dif_pos hk0, acc1_step V c (8 * i + (k + 1)) hk1 p q]
    have e1 : (8 * i + (k + 1)) % 8 = k + 1 := by omega
    have e2 : (8 * i + (k + 1)) / 8 = i := by omega
    have e3 : ¬(8 * i + (k + 1)) % 8 = 0 := by omega
    rw [if_neg e3, e1, e2, acc1_congr V c (8 * i + (k + 1) - 1) _ (8 * i + k) hk0 (by omega)]
  have key := Cert.Algebra.acc_last 8 2048 16384 (by decide) (by decide)
    (term1 (V c main_arg2) (V c main_v0) (2048 * i + p.val) q) (accRow1 V c i p q) h0 hs
  have h7 : accRow1 V c i p q (8 - 1) = acc1 V c (8 * i + 7) h (ix2 p q) := by
    show (if hk : 8 * i + 7 < cfg1.N then acc1 V c (8 * i + 7) hk (ix2 p q) else 0) = _
    rw [dif_pos h]
  rw [← h7]; exact key

/-- What a point that writes its block back writes is that block of the scaled aggregation of the arrays the region finds. -/
theorem flushed1_eq (c : Dev nD) (D : Dat τ (Elt Ideal) Unit ℕ (UR sig nD τ) ℕ cfg1 c) (h3 : ∀ t, D.after 3 t = out1 V c t)
    (t : Fin cfg1.N) (hf : (cfg1.win 3).flush t = true) :
    D.flushed 3 t = ((cfg1.win 3).blk t).view.read (Elt Ideal) (Cert.Spec.eyOf (V c main_arg2) (V c main_v0) (V c main_v1)) := by
  have hN : cfg1.N = 32 := N_1
  have ht32 : t.val < 32 := by rw [← hN]; exact t.isLt
  have h7 : t.val % 8 = 7 := (flush1_3 t).mp hf
  have hc : cond1_1 (grid1.coords t) := (hcond1_1 t).mpr h7
  obtain ⟨-, -, -, -, e4, e5, e6, e7, e8, e9⟩ := idx_facts1 t
  show (cfg1.win 3).cut (grid1.coords t) (D.after 3 t) = _
  rw [h3, out1_eq V c t hc]
  funext j
  obtain ⟨p, q, rfl⟩ : ∃ (p : Fin 2048) (q : Fin 128), j = ix2 p q := ⟨j 0, j 1, eq_ix2 j⟩
  show k1_pay3 (View.ld (iblk1 V c 2 t) (rd1 (grid1.coords t) hc)) (acc1 V c t.val t.isLt) (ix2 p q)
      = Cert.Spec.eyOf (V c main_arg2) (V c main_v0) (V c main_v1) (((cfg1.win 3).blk t).view.emb (ix2 p q))
  refine (Cert.KernelIdeal.Pay.k1_pay3_apply _ _ p q).trans ?_
  have hp : p.val < 2048 := p.isLt
  have hq : q.val < 128 := q.isLt
  have ht : t.val = 8 * (t.val / 8) + 7 := by omega
  have hi : t.val / 8 < 4 := by omega
  have hr : 2048 * (t.val / 8) + p.val < 8192 := by omega
  have hE : ((cfg1.win 3).blk t).view.emb (ix2 p q) = ix2 ⟨2048 * (t.val / 8) + p.val, hr⟩ q := by
    funext a; apply Fin.ext
    match a with
    | ⟨0, _⟩ => show win1_3.index t (0 : Fin 2) * 2048 + 1 * p.val = 2048 * (t.val / 8) + p.val; omega
    | ⟨1, _⟩ => show win1_3.index t (1 : Fin 2) * 128 + 1 * q.val = q.val; omega
  rw [hE, Cert.Spec.eyOf_ix2]
  refine congrArg₂ (fun a b : EReal => a * b) ?_ ?_
  · show V c main_v1 (((cfg1.win 2).blk t).view.emb ((rd1 (grid1.coords t) hc).idx (ix2 p (0 : Fin 1)))) = _
    refine congrArg (V c main_v1) ?_
    funext a; apply Fin.ext
    match a with
    | ⟨0, _⟩ =>
      show win1_2.index t (0 : Fin 2) * 8192 + 1 * (k1_off1 (grid1.coords t) (0 : Fin 2) + 1 * p.val) = 2048 * (t.val / 8) + p.val
      omega
    | ⟨1, _⟩ =>
      show win1_2.index t (1 : Fin 2) * 1 + 1 * (k1_off1 (grid1.coords t) (1 : Fin 2) + 1 * 0) = 0
      omega
  · rw [acc1_congr V c t.val t.isLt (8 * (t.val / 8) + 7) (lt_of_eq_of_lt ht.symm t.isLt) ht, acc1_last V c (t.val / 8) hi p q]
    exact Finset.sum_congr rfl fun v _ => term1_eq (V c main_arg2) (V c main_v0) ⟨2048 * (t.val / 8) + p.val, hr⟩ q v

/-- An index of the result is in point t's block iff each coordinate is in the block's range on its axis. -/
theorem mem_blk1 (t : Fin cfg1.N) (i : S8192x128.Idx) :
    i ∈ ((cfg1.win 3).blk t).view.set ↔ ∀ a : Fin 2, win1_3.index t a * S2048x128.size a ≤ (i a).val
      ∧ (i a).val < win1_3.index t a * S2048x128.size a + S2048x128.size a := by
  show i ∈ ((View.whole main_v3).slice (win1_3.rect t)).set ↔ _
  rw [View.set_slice_whole, Rect.mem_set_unit]
  exact Iff.rfl

/-- Row r of the result lies in the block written back at the last tile of row block r / 2048. -/
theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 32 := N_1
  let t : Fin cfg1.N := ⟨8 * ((i 0).val / 2048) + 7, by rw [hN]; omega⟩
  obtain ⟨-, -, -, -, -, -, e6, e7, -, -⟩ := idx_facts1 t
  have ht : t.val = 8 * ((i 0).val / 2048) + 7 := rfl
  refine ⟨t, (flush1_3 t).mpr (by omega), ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 128 ≤ (i 1).val ∧ (i 1).val < win1_3.index t (1 : Fin 2) * 128 + 128; omega

/-- The aggregated array after region 1: the scaled aggregation of the arrays the region found. -/
theorem final1 (c : Dev nD) (D : Dat τ (Elt Ideal) Unit ℕ (UR sig nD τ) ℕ cfg1 c)
    (hA : ∀ w, D.A w = V c (Pipeline.arrRef spec1 w)) (h3 : ∀ t, D.after 3 t = out1 V c t) :
    D.arrAt 3 cfg1.N = Cert.Spec.eyOf (V c main_arg2) (V c main_v0) (V c main_v1) :=
  D.arrAt_eq_of_cover 3 (Cert.Spec.eyOf (V c main_arg2) (V c main_v0) (V c main_v1)) (fun t hf => flushed1_eq V c D h3 t hf) cover1

end Cert.KernelIdeal.H

end
-- ==== Proof.KI.Val2.lean ====
/-
  Region 2 as one function of what it finds. Its 32 points run over 8 row blocks of nodes and, within each, over
  4 row tiles of hyperedges. The accumulator restarts at the first tile of a block and gains one tile's sum of
  mt (e, n) · ey (e, o) per point (the incidence tile is used transposed: the sum runs over the tile's rows), so after the
  4th tile it holds the whole sum over the 8192 hyperedges; there the block written back is that sum times one half of
  the node's weight. The 8 blocks cover the 16384 rows.
-/
import proofs.«149786_j41644002902021_2_alg».proof.Proof.KI.Defs
import proofs.«149786_j41644002902021_2_alg».proof.Proof.Pay
import proofs.«149786_j41644002902021_2_alg».proof.Proof.SpecOf
import proofs.«149786_j41644002902021_2_alg».proof.Proof.Algebra
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

/-- One term of a node's sum over the hyperedges, at positions given as natural numbers (zero outside the arrays). -/
def term2 (mt : Cert.Spec.SM.Idx → EReal) (ey : Cert.Spec.SE.Idx → EReal) (r : ℕ) (q : Fin 128) (v : ℕ) : EReal :=
  if h : r < 16384 ∧ v < 8192 then mt (ix2 ⟨v, h.2⟩ ⟨r, h.1⟩) * ey (ix2 ⟨v, h.2⟩ q) else 0

theorem term2_eq (mt : Cert.Spec.SM.Idx → EReal) (ey : Cert.Spec.SE.Idx → EReal) (r : Fin 16384) (q : Fin 128) (v : Fin 8192) :
    term2 mt ey r.val q v.val = mt (ix2 v r) * ey (ix2 v q) := by
  unfold term2; rw [dif_pos ⟨r.isLt, v.isLt⟩]

/-- The block indices and the diagonal's row offset over the grid: point t is tile t % 4 of node block t / 4. -/
theorem idx_facts2 : ∀ t : Fin cfg2.N,
    win2_0.index t (0 : Fin 2) = t.val % 4 ∧ win2_0.index t (1 : Fin 2) = t.val / 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0
    ∧ k2_off1 (grid2.coords t) (0 : Fin 2) = 2048 * (t.val / 4) ∧ k2_off1 (grid2.coords t) (1 : Fin 2) = 0 :=
  (by decide +kernel : ∀ t : Fin grid2.N, _)

/-- The accumulator does not depend on how its position is written. -/
theorem acc2_congr (c : Dev nD) (u : ℕ) (hu : u < cfg2.N) (u' : ℕ) (hu' : u' < cfg2.N) (e : u = u') :
    acc2 V c u hu = acc2 V c u' hu' := by subst e; rfl

/-- One point's step, entry by entry: the point's tile sum is added to zero at the first tile of a node block and to what
    the point before left elsewhere. -/
theorem acc2_step (c : Dev nD) (n : ℕ) (hn : n < cfg2.N) (p : Fin 2048) (q : Fin 128) :
    acc2 V c n hn (ix2 p q)
      = (if n % 4 = 0 then (0 : EReal) else acc2 V c (n - 1) (Nat.lt_of_le_of_lt (Nat.sub_le _ _) hn) (ix2 p q))
        + ∑ j : Fin 2048, term2 (V c main_arg2) (V c main_v3) (2048 * (n / 4) + p.val) q (n % 4 * 2048 + j.val) := by
  have hN : cfg2.N = 32 := N_2
  have hn' : n < 32 := by rw [← hN]; exact hn
  obtain ⟨e0, e1, e2, e3, -, -, -, -, -, -⟩ := idx_facts2 ⟨n, hn⟩
  have e0' : win2_0.index ⟨n, hn⟩ (0 : Fin 2) = n % 4 := e0
  have e1' : win2_0.index ⟨n, hn⟩ (1 : Fin 2) = n / 4 := e1
  have e2' : win2_1.index ⟨n, hn⟩ (0 : Fin 2) = n % 4 := e2
  have e3' : win2_1.index ⟨n, hn⟩ (1 : Fin 2) = 0 := e3
  refine (congrFun (acc2_eq V c ⟨n, hn⟩) (ix2 p q)).trans ?_
  refine (Cert.KernelIdeal.Pay.k2_pay2_apply _ _ _ p q).trans ?_
  refine congrArg₂ (fun a b : EReal => a + b) ?_ ?_
  · show (if n % 4 = 0 then k2_pay1 (F := Ideal) else acc2 V c (n - 1) _) (ix2 p q) = _
    by_cases h4 : n % 4 = 0
    · rw [if_pos h4, if_pos h4]; exact Cert.KernelIdeal.Pay.k2_pay1_apply p q
    · rw [if_neg h4, if_neg h4]
  · refine Finset.sum_congr rfl fun j _ => ?_
    have hp : p.val < 2048 := p.isLt
    have hj : j.val < 2048 := j.isLt
    have hq : q.val < 128 := q.isLt
    have hr : 2048 * (n / 4) + p.val < 16384 := by omega
    have hv : n % 4 * 2048 + j.val < 8192 := by omega
    unfold term2
    rw [dif_pos ⟨hr, hv⟩]
    have h0 : ((cfg2.win 0).blk ⟨n, hn⟩).view.emb (ix2 j p) = ix2 ⟨n % 4 * 2048 + j.val, hv⟩ ⟨2048 * (n / 4) + p.val, hr⟩ := by
      funext a; apply Fin.ext
      match a with
      | ⟨0, _⟩ => show win2_0.index ⟨n, hn⟩ (0 : Fin 2) * 2048 + 1 * j.val = n % 4 * 2048 + j.val; omega
      | ⟨1, _⟩ => show win2_0.index ⟨n, hn⟩ (1 : Fin 2) * 2048 + 1 * p.val = 2048 * (n / 4) + p.val; omega
    have h1 : ((cfg2.win 1).blk ⟨n, hn⟩).view.emb (ix2 j q) = ix2 ⟨n % 4 * 2048 + j.val, hv⟩ q := by
      funext a; apply Fin.ext
      match a with
      | ⟨0, _⟩ => show win2_1.index ⟨n, hn⟩ (0 : Fin 2) * 2048 + 1 * j.val = n % 4 * 2048 + j.val; omega
      | ⟨1, _⟩ => show win2_1.index ⟨n, hn⟩ (1 : Fin 2) * 128 + 1 * q.val = q.val; omega
    rw [show iblk2 V c 0 ⟨n, hn⟩ (ix2 j p) = V c main_arg2 (ix2 ⟨n % 4 * 2048 + j.val, hv⟩ ⟨2048 * (n / 4) + p.val, hr⟩) from
        congrArg (V c main_arg2) h0,
      show iblk2 V c 1 ⟨n, hn⟩ (ix2 j q) = V c main_v3 (ix2 ⟨n % 4 * 2048 + j.val, hv⟩ q) from congrArg (V c main_v3) h1]

/-- The accumulator's entry (p, q) along the 4 points of node block i (zero past the grid). -/
def accRow2 (c : Dev nD) (i : ℕ) (p : Fin 2048) (q : Fin 128) (k : ℕ) : EReal :=
  if hk : 4 * i + k < cfg2.N then acc2 V c (4 * i + k) hk (ix2 p q) else 0

/-- After the last tile of node block i the accumulator holds the whole sum over the hyperedges. -/
theorem acc2_last (c : Dev nD) (i : ℕ) (hi : i < 8) (p : Fin 2048) (q : Fin 128) (h : 4 * i + 3 < cfg2.N) :
    acc2 V c (4 * i + 3) h (ix2 p q)
      = ∑ v : Fin 8192, term2 (V c main_arg2) (V c main_v3) (2048 * i + p.val) q v.val := by
  have hN : cfg2.N = 32 := N_2
  have h0 : accRow2 V c i p q 0 = 0 + ∑ j : Fin 2048, term2 (V c main_arg2) (V c main_v3) (2048 * i + p.val) q j.val := by
    have hk : 4 * i + 0 < cfg2.N := by rw [hN]; omega
    unfold accRow2
    rw [dif_pos hk, acc2_step V c (4 * i + 0) hk p q]
    have e1 : (4 * i + 0) % 4 = 0 := by omega
    have e2 : (4 * i + 0) / 4 = i := by omega
    rw [if_pos e1, e1, e2]
    simp only [Nat.zero_mul, Nat.zero_add]
  have hs : ∀ k, k + 1 < 4 → accRow2 V c i p q (k + 1) = accRow2 V c i p q k
      + ∑ j : Fin 2048, term2 (V c main_arg2) (V c main_v3) (2048 * i + p.val) q ((k + 1) * 2048 + j.val) := by
    intro k hk
    have hk1 : 4 * i + (k + 1) < cfg2.N := by rw [hN]; omega
    have hk0 : 4 * i + k < cfg2.N := by rw [hN]; omega
    unfold accRow2
    rw [dif_pos hk1, dif_pos hk0, acc2_step V c (4 * i + (k + 1)) hk1 p q]
    have e1 : (4 * i + (k + 1)) % 4 = k + 1 := by omega
    have e2 : (4 * i + (k + 1)) / 4 = i := by omega
    have e3 : ¬(4 * i + (k + 1)) % 4 = 0 := by omega
    rw [if_neg e3, e1, e2, acc2_congr V c (4 * i + (k + 1) - 1) _ (4 * i + k) hk0 (by omega)]
  have key := Cert.Algebra.acc_last 4 2048 8192 (by decide) (by decide)
    (term2 (V c main_arg2) (V c main_v3) (2048 * i + p.val) q) (accRow2 V c i p q) h0 hs
  have h3 : accRow2 V c i p q (4 - 1) = acc2 V c (4 * i + 3) h (ix2 p q) := by
    show (if hk : 4 * i + 3 < cfg2.N then acc2 V c (4 * i + 3) hk (ix2 p q) else 0) = _
    rw [dif_pos h]
  rw [← h3]; exact key

/-- What a point that writes its block back writes is that block of the scaled aggregation of the arrays the region finds. -/
theorem flushed2_eq (c : Dev nD) (D : Dat τ (Elt Ideal) Unit ℕ (UR sig nD τ) ℕ cfg2 c) (h3 : ∀ t, D.after 3 t = out2 V c t)
    (t : Fin cfg2.N) (hf : (cfg2.win 3).flush t = true) :
    D.flushed 3 t = ((cfg2.win 3).blk t).view.read (Elt Ideal) (Cert.Spec.nyOf (V c main_arg2) (V c main_v3) (V c main_v2)) := by
  have hN : cfg2.N = 32 := N_2
  have ht32 : t.val < 32 := by rw [← hN]; exact t.isLt
  have h7 : t.val % 4 = 3 := (flush2_3 t).mp hf
  have hc : cond2_1 (grid2.coords t) := (hcond2_1 t).mpr h7
  obtain ⟨-, -, -, -, e4, e5, e6, e7, e8, e9⟩ := idx_facts2 t
  show (cfg2.win 3).cut (grid2.coords t) (D.after 3 t) = _
  rw [h3, out2_eq V c t hc]
  funext j
  obtain ⟨p, q, rfl⟩ : ∃ (p : Fin 2048) (q : Fin 128), j = ix2 p q := ⟨j 0, j 1, eq_ix2 j⟩
  show k2_pay3 (View.ld (iblk2 V c 2 t) (rd2 (grid2.coords t) hc)) (acc2 V c t.val t.isLt) (ix2 p q)
      = Cert.Spec.nyOf (V c main_arg2) (V c main_v3) (V c main_v2) (((cfg2.win 3).blk t).view.emb (ix2 p q))
  refine (Cert.KernelIdeal.Pay.k2_pay3_apply _ _ p q).trans ?_
  have hp : p.val < 2048 := p.isLt
  have hq : q.val < 128 := q.isLt
  have ht : t.val = 4 * (t.val / 4) + 3 := by omega
  have hi : t.val / 4 < 8 := by omega
  have hr : 2048 * (t.val / 4) + p.val < 16384 := by omega
  have hE : ((cfg2.win 3).blk t).view.emb (ix2 p q) = ix2 ⟨2048 * (t.val / 4) + p.val, hr⟩ q := by
    funext a; apply Fin.ext
    match a with
    | ⟨0, _⟩ => show win2_3.index t (0 : Fin 2) * 2048 + 1 * p.val = 2048 * (t.val / 4) + p.val; omega
    | ⟨1, _⟩ => show win2_3.index t (1 : Fin 2) * 128 + 1 * q.val = q.val; omega
  rw [hE, Cert.Spec.nyOf_ix2]
  refine congrArg₂ (fun a b : EReal => a * b) (congrArg (fun a : EReal => Cert.Spec.half * a) ?_) ?_
  · show V c main_v2 (((cfg2.win 2).blk t).view.emb ((rd2 (grid2.coords t) hc).idx (ix2 p (0 : Fin 1)))) = _
    refine congrArg (V c main_v2) ?_
    funext a; apply Fin.ext
    match a with
    | ⟨0, _⟩ =>
      show win2_2.index t (0 : Fin 2) * 16384 + 1 * (k2_off1 (grid2.coords t) (0 : Fin 2) + 1 * p.val) = 2048 * (t.val / 4) + p.val
      omega
    | ⟨1, _⟩ =>
      show win2_2.index t (1 : Fin 2) * 1 + 1 * (k2_off1 (grid2.coords t) (1 : Fin 2) + 1 * 0) = 0
      omega
  · rw [acc2_congr V c t.val t.isLt (4 * (t.val / 4) + 3) (lt_of_eq_of_lt ht.symm t.isLt) ht, acc2_last V c (t.val / 4) hi p q]
    exact Finset.sum_congr rfl fun v _ => term2_eq (V c main_arg2) (V c main_v3) ⟨2048 * (t.val / 4) + p.val, hr⟩ q v

/-- An index of the result is in point t's block iff each coordinate is in the block's range on its axis. -/
theorem mem_blk2 (t : Fin cfg2.N) (i : S16384x128.Idx) :
    i ∈ ((cfg2.win 3).blk t).view.set ↔ ∀ a : Fin 2, win2_3.index t a * S2048x128.size a ≤ (i a).val
      ∧ (i a).val < win2_3.index t a * S2048x128.size a + S2048x128.size a := by
  show i ∈ ((View.whole main_v4).slice (win2_3.rect t)).set ↔ _
  rw [View.set_slice_whole, Rect.mem_set_unit]
  exact Iff.rfl

/-- Row r of the result lies in the block written back at the last tile of node block r / 2048. -/
theorem cover2 (i : S16384x128.Idx) : ∃ t : Fin cfg2.N, (cfg2.win 3).flush t = true ∧ i ∈ ((cfg2.win 3).blk t).view.set := by
  have hi0 : (i 0).val < 16384 := (i 0).isLt
  have hi1 : (i 1).val < 128 := (i 1).isLt
  have hN : cfg2.N = 32 := N_2
  let t : Fin cfg2.N := ⟨4 * ((i 0).val / 2048) + 3, by rw [hN]; omega⟩
  obtain ⟨-, -, -, -, -, -, e6, e7, -, -⟩ := idx_facts2 t
  have ht : t.val = 4 * ((i 0).val / 2048) + 3 := rfl
  refine ⟨t, (flush2_3 t).mpr (by omega), ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 128 ≤ (i 1).val ∧ (i 1).val < win2_3.index t (1 : Fin 2) * 128 + 128; omega

/-- The result array after region 2: the scaled aggregation of the arrays the region found. -/
theorem final2 (c : Dev nD) (D : Dat τ (Elt Ideal) Unit ℕ (UR sig nD τ) ℕ cfg2 c)
    (hA : ∀ w, D.A w = V c (Pipeline.arrRef spec2 w)) (h3 : ∀ t, D.after 3 t = out2 V c t) :
    D.arrAt 3 cfg2.N = Cert.Spec.nyOf (V c main_arg2) (V c main_v3) (V c main_v2) :=
  D.arrAt_eq_of_cover 3 (Cert.Spec.nyOf (V c main_arg2) (V c main_v3) (V c main_v2)) (fun t hf => flushed2_eq V c D h3 t hf) cover2

end Cert.KernelIdeal.H

end
-- ==== Proof.RefIsG.lean ====
/-
  The reference program computes, entry by entry, the array Spec.NY of its five arguments:
  the projection y = x · w, the aggregation over the nodes of each hyperedge scaled by dv, then the
  aggregation over the hyperedges of each node (the transposed incidence matrix read at (e, n)) scaled by ½ · de.
  Each stage is read at an index and identified with the corresponding entry of the specification.
-/
import proofs.«149786_j41644002902021_2_alg».proof.Defs
import proofs.«149786_j41644002902021_2_alg».proof.Proof.Gen.ReferenceIdeal.Read
import proofs.«149786_j41644002902021_2_alg».proof.Proof.Gen.Pre_finite_inputs
import proofs.«149786_j41644002902021_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.Spec
open scoped BigOperators

variable (x : SX.Idx → EReal) (w : SW.Idx → EReal) (mt : SM.Idx → EReal) (dv : SDv.Idx → EReal) (de : SDe.Idx → EReal)

/-! ## The index maps of the stages, at coordinates -/

theorem lidx_v0 (n : Fin 16384) (o : Fin 128) (c : Fin 256) : lidx_main_v0 (ix2 n o) c = ix2 n c :=
  funext fun a => Fin.ext (by match a with | ⟨0, _⟩ => rfl | ⟨1, _⟩ => rfl)
theorem ridx_v0 (n : Fin 16384) (o : Fin 128) (c : Fin 256) : ridx_main_v0 (ix2 n o) c = ix2 c o :=
  funext fun a => Fin.ext (by match a with | ⟨0, _⟩ => rfl | ⟨1, _⟩ => rfl)
theorem lidx_v1 (e : Fin 8192) (o : Fin 128) (n : Fin 16384) : lidx_main_v1 (ix2 e o) n = ix2 e n :=
  funext fun a => Fin.ext (by match a with | ⟨0, _⟩ => rfl | ⟨1, _⟩ => rfl)
theorem ridx_v1 (e : Fin 8192) (o : Fin 128) (n : Fin 16384) : ridx_main_v1 (ix2 e o) n = ix2 n o :=
  funext fun a => Fin.ext (by match a with | ⟨0, _⟩ => rfl | ⟨1, _⟩ => rfl)
theorem idx_v32 (e : Fin 8192) (o : Fin 128) : idx_main_v2 (idx_main_v3 (ix2 e o)) = ix1 e :=
  funext fun a => Fin.ext (by match a with | ⟨0, _⟩ => rfl)
theorem lidx_v65 (n : Fin 16384) (o : Fin 128) (e : Fin 8192) : idx_main_v5 (lidx_main_v6 (ix2 n o) e) = ix2 e n :=
  funext fun a => Fin.ext (by match a with | ⟨0, _⟩ => rfl | ⟨1, _⟩ => rfl)
theorem ridx_v6 (n : Fin 16384) (o : Fin 128) (e : Fin 8192) : ridx_main_v6 (ix2 n o) e = ix2 e o :=
  funext fun a => Fin.ext (by match a with | ⟨0, _⟩ => rfl | ⟨1, _⟩ => rfl)
theorem idx_v107 (n : Fin 16384) (o : Fin 128) : idx_main_v7 (idx_main_v10 (ix2 n o)) = ix1 n :=
  funext fun a => Fin.ext (by match a with | ⟨0, _⟩ => rfl)

/-! ## The stages, at coordinates -/

/-- The first product is the projection. -/
theorem v0_at (n : Fin 16384) (o : Fin 128) : val_main_v0 (F := Ideal) x w (ix2 n o) = yAt x w n o := by
  rw [val_main_v0_apply]
  unfold yAt
  refine Finset.sum_congr rfl fun c _ => ?_
  rw [lidx_v0, ridx_v0]

/-- The second product sums the projection over the nodes of a hyperedge. -/
theorem v1_at (e : Fin 8192) (o : Fin 128) :
    val_main_v1 (F := Ideal) x w mt (ix2 e o) = ∑ n : Fin 16384, mt (ix2 e n) * yAt x w n o := by
  rw [val_main_v1_apply]
  refine Finset.sum_congr rfl fun n _ => ?_
  rw [lidx_v1, ridx_v1, v0_at]

/-- Scaled by the hyperedge's weight, it is the specification's aggregation. -/
theorem v4_at (e : Fin 8192) (o : Fin 128) : val_main_v4 (F := Ideal) x w mt dv (ix2 e o) = eyAt x w mt dv e o := by
  rw [val_main_v4_apply, val_main_v3_apply, val_main_v2_apply, idx_v32, v1_at, Ideal.mulf_def]
  rfl

/-- The third product reads the transposed incidence matrix at (e, n). -/
theorem v6_at (n : Fin 16384) (o : Fin 128) :
    val_main_v6 (F := Ideal) x w mt dv (ix2 n o) = ∑ e : Fin 8192, mt (ix2 e n) * eyAt x w mt dv e o := by
  rw [val_main_v6_apply]
  refine Finset.sum_congr rfl fun e _ => ?_
  rw [val_main_v5_apply, lidx_v65, ridx_v6, v4_at]

/-- The reference's result is the specification's array. -/
theorem result_eq : val_main_v11 (F := Ideal) x w mt dv de = NY x w mt dv de := by
  funext i
  obtain ⟨n, o, rfl⟩ : ∃ (n : Fin 16384) (o : Fin 128), i = ix2 n o := ⟨i 0, i 1, eq_ix2 i⟩
  rw [val_main_v11_apply, val_main_v10_apply, val_main_v9_apply, val_main_v8_apply, val_main_cst_apply, val_main_v7_apply,
    idx_v107, v6_at, NY_ix2, Ideal.mulf_def, Ideal.mulf_def, Ideal.ofBits_def]
  rfl

/-! ## The reference's run -/

/-- Every fair execution of the reference ends with the specification's array of its arguments as they were at
    the start, and those arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v11)
            = NY (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
                (m' ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v11_eq _ _ _ _ _).trans (result_eq _ _ _ _ _)), (h c).2⟩)
    (Cert.ReferenceIdeal.Value.run (F := Ideal) m' ρ')

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KI.FinalOf.lean ====
/-
  The idealized kernel's result, read back through its three regions, given what the launch needs of the two
  accumulating regions' proof data. Region 2 leaves nyOf of what it finds: the incidence matrix as launched, the array
  region 1 left, and the column holding the node weights. Region 1 leaves eyOf of what it finds: the incidence matrix,
  the projection region 0 left, and the column holding the hyperedge weights. Region 0 leaves the projection Y of x and
  w. A length-n vector viewed as an n × 1 column reads its entry e at (e, 0). So the result is the specification's array NY
  of the five arguments as launched, which is also what the reference leaves: the two programs end with equal results.
-/
import proofs.«149786_j41644002902021_2_alg».proof.Defs
import proofs.«149786_j41644002902021_2_alg».proof.Proof.KI.Fold
import proofs.«149786_j41644002902021_2_alg».proof.Proof.KI.Reg1Dat
import proofs.«149786_j41644002902021_2_alg».proof.Proof.KI.Reg2Dat
import proofs.«149786_j41644002902021_2_alg».proof.Proof.KI.Val0
import proofs.«149786_j41644002902021_2_alg».proof.Proof.KI.Val1
import proofs.«149786_j41644002902021_2_alg».proof.Proof.KI.Val2
import proofs.«149786_j41644002902021_2_alg».proof.Proof.SpecOf
import proofs.«149786_j41644002902021_2_alg».proof.Proof.LibKeepdims
import proofs.«149786_j41644002902021_2_alg».proof.Proof.RefIsG

set_option maxRecDepth 16384

noncomputable section

namespace Cert.KernelIdeal.H

open Idealize.ShloMosaic Idealize.ShloMosaic.TcCoe Idealize.ShloMosaic.Tactic
open Idealize.SL Idealize.SL.Sem
open Idealize.ShloMosaic.Pipeline (Dat Cfg Window BodyObligation)
open Idealize.ShloMosaic.ValueIdx
open Cert.KernelIdeal Cert.KernelIdeal.Gen

variable (m : (ℓ : Loc nD τ sig) → Buf (Elt Ideal) ℓ)

/-- The five arguments as launched, on core c. -/
abbrev argX (c : Dev nD) : Buf (Elt Ideal) ((c.tc : Thread nD τ).loc main_arg0) := m ((c.tc : Thread nD τ).loc main_arg0)
abbrev argW (c : Dev nD) : Buf (Elt Ideal) ((c.tc : Thread nD τ).loc main_arg1) := m ((c.tc : Thread nD τ).loc main_arg1)
abbrev argMt (c : Dev nD) : Buf (Elt Ideal) ((c.tc : Thread nD τ).loc main_arg2) := m ((c.tc : Thread nD τ).loc main_arg2)
abbrev argDv (c : Dev nD) : Buf (Elt Ideal) ((c.tc : Thread nD τ).loc main_arg3) := m ((c.tc : Thread nD τ).loc main_arg3)
abbrev argDe (c : Dev nD) : Buf (Elt Ideal) ((c.tc : Thread nD τ).loc main_arg4) := m ((c.tc : Thread nD τ).loc main_arg4)
/-- The two diagonals as one-column matrices. -/
abbrev colDv (c : Dev nD) : S8192x1.Idx → EReal := shapeCast S8192x1 (argDv m c) shapeCasts_S8192_S8192x1
abbrev colDe (c : Dev nD) : S16384x1.Idx → EReal := shapeCast S16384x1 (argDe m c) shapeCasts_S16384_S16384x1

/-- What region 1 leaves: the scaled aggregation over the nodes, of the projection of x and w. -/
theorem region1_value (c : Dev nD) :
    (dat1 (V2 m) c).arrAt 3 cfg1.N = Cert.Spec.eyOf (argMt m c) (Cert.Spec.Y (argX m c) (argW m c)) (colDv m c) := by
  refine (final1 (V2 m) c (dat1 (V2 m) c) (A_eq1 _ c) (after1_3 _ c)).trans ?_
  have b2 : V2 m c main_arg2 = argMt m c := W2_arg2 m c
  have b0 : V2 m c main_v0 = Cert.Spec.Y (argX m c) (argW m c) := (W2_v0 m c).trans (final0 (V0 m) c)
  have b1 : V2 m c main_v1 = colDv m c := W2_v1 m c
  rw [b2, b0, b1]

/-- What region 2 leaves: the specification's array of the five arguments as launched. -/
theorem kernel_value_of (h1 : Ok1 (F := Ideal) (fun V c => dat1 V c)) (c : Dev nD) :
    (dat2 (V3 m (fun V c => dat1 V c)) c).arrAt 3 cfg2.N
      = Cert.Spec.NY (argX m c) (argW m c) (argMt m c) (argDv m c) (argDe m c) := by
  refine (final2 (V3 m (fun V c => dat1 V c)) c (dat2 _ c) (A_eq2 _ c) (after2_3 _ c)).trans ?_
  have a2 : V3 m (fun V c => dat1 V c) c main_arg2 = argMt m c := W3_arg2 m _ h1 c
  have a3 : V3 m (fun V c => dat1 V c) c main_v3
      = Cert.Spec.eyOf (argMt m c) (Cert.Spec.Y (argX m c) (argW m c)) (colDv m c) :=
    (W3_v3 m _ c).trans (region1_value m c)
  have a4 : V3 m (fun V c => dat1 V c) c main_v2 = colDe m c := W3_v2 m _ c
  rw [a2, a3, a4]
  exact Cert.Spec.NY_eq (argX m c) (argW m c) (argMt m c) (argDv m c) (argDe m c) (colDv m c) (colDe m c)
    (fun e => shapeCast_a_a1_apply (argDv m c) shapeCasts_S8192_S8192x1 e 0)
    (fun n => shapeCast_a_a1_apply (argDe m c) shapeCasts_S16384_S16384x1 n 0)

/-- Every fair execution of the idealized kernel ends with the specification's array of its arguments as launched, and
    those arguments unchanged. -/
theorem kernel_run_of (h1 : Ok1 (F := Ideal) (fun V c => dat1 V c)) (h2 : Ok2 (F := Ideal) (fun V c => dat2 V c))
    (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v4)
            = Cert.Spec.NY (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => ⟨(h c).1.trans (kernel_value_of m h1 c), (h c).2⟩)
    (run_frame_value m _ _ h1 h2 ρ)

/-- At the ideal values the kernel and the reference, from memories that agree on the arguments, end with equal results and
    unchanged arguments: both results are the specification's array of the same five arrays. -/
theorem algebraic_of (h1 : Ok1 (F := Ideal) (fun V c => dat1 V c)) (h2 : Ok2 (F := Ideal) (fun V c => dat2 V c)) :
    Cert.algebraic_KernelIdeal_ReferenceIdeal := by
  intro m ρ m' ρ' _ hagree
  refine ⟨fun c => Cert.Spec.NY (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), kernel_run_of m h1 h2 ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2]

end Cert.KernelIdeal.H

end
-- ==== Proof.KI.Final.lean ====
/-
  The idealized kernel's claims, closed: with the two accumulating regions' proof data in hand, its result array is
  the specification's array NY of the five arguments as launched, which is what the reference leaves too; and its
  arguments end unchanged.
-/
import proofs.«149786_j41644002902021_2_alg».proof.Proof.KI.Ok
import proofs.«149786_j41644002902021_2_alg».proof.Proof.KI.FinalOf

noncomputable section

namespace Cert.KernelIdeal.H

open Idealize.ShloMosaic Idealize.ShloMosaic.TcCoe
open Idealize.SL Idealize.SL.Sem
open Idealize.ShloMosaic.Pipeline (Dat)
open Cert.KernelIdeal Cert.KernelIdeal.Gen

/-- What region 2 leaves is the specification's array of the five arguments as launched. -/
theorem kernel_value (m : (ℓ : Loc nD τ sig) → Buf (Elt Ideal) ℓ) (c : Dev nD) :
    (dat2 (V3 m (fun V c => dat1 V c)) c).arrAt 3 cfg2.N
      = Cert.Spec.NY (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) :=
  kernel_value_of m ok1 c

/-- Every fair execution of the idealized kernel ends with the specification's array of its arguments as launched, and
    those arguments unchanged. -/
theorem kernel_run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v4)
            = Cert.Spec.NY (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  kernel_run_of m ok1 ok2 ρ

/-- The kernel and the reference, at the ideal values, end with equal results and unchanged arguments. -/
theorem algebraic : Cert.algebraic_KernelIdeal_ReferenceIdeal := algebraic_of ok1 ok2

/-- The idealized kernel runs and leaves its arguments unchanged. -/
theorem frame_ki : Cert.frame_KernelIdeal := fun m ρ _ => frame_any (F := Ideal) m ρ

end Cert.KernelIdeal.H

end
-- ==== Proof.lean ====
/-
  The certificate of the hypergraph convolution ny = ½ · D_e · MTᵀ · (D_v · (MT · (x · w))): the tiled kernel against
  the whole-array reference, on the extended reals.

  The kernel is three grid regions. Region 0 forms the projection y = x · w one 2048-row tile at a time. Region 1 forms
  ey = D_v · (MT · y): for each of 4 row tiles of MT it adds up, over the 8 column tiles, the tile products in an
  accumulator that is zeroed at the first column tile, and at the last it scales the accumulator's rows by the
  diagonal and stores the block. Region 2 forms ny = (½ · D_e) · (MTᵀ · ey) the same way with the roles of MT's rows and
  columns exchanged (8 column tiles, each summed over the 4 row tiles, the tile products taken with MT's tile
  transposed). The reference takes each product in one step.

  At the ideal values a change of float format is the identity and every operation is exact, so both programs compute
  the same three sums; they differ only in the order in which the long sums are taken (tile by tile, from a zero, against
  all at once), and addition on the extended reals is commutative and associative with zero neutral. No entry has to be
  finite: the precondition is never opened.

  Frames: each region's body is run symbolically at a generic grid point in each of its three control cases (first,
  middle, last tile of a sum); the accumulator's contents after each point are carried in the region's invariant; the
  three regions and the two reshapes of the diagonals in between are chained from the launch memory to the end, where
  every argument array holds what it held at the launch. The same argument, read at the word-level values, is the
  word-level program's frame (its operations are never interpreted there). The reference is a straight line of host
  operations. The idealization rewrote no operation, so it preserves the program trivially.
-/
import proofs.«149786_j41644002902021_2_alg».proof.Defs
import proofs.«149786_j41644002902021_2_alg».proof.Proof.K.Ok
import proofs.«149786_j41644002902021_2_alg».proof.Proof.KI.Final
import Idealize.ShloMosaic.Adequacy
import Idealize.ShloMosaic.Init

noncomputable section

namespace Cert.Proof

open Idealize.ShloMosaic Idealize.SL.Sem

/-- The word-level program runs to the end with its argument arrays unchanged. -/
theorem frame_k : Cert.frame_Kernel := fun m ρ _ => Cert.Kernel.H.frame_any (F := Bits) m ρ

theorem claim : Cert.Claim := ⟨Cert.Kernel.Gen.facts, Cert.KernelIdeal.Gen.facts, Cert.ReferenceIdeal.Gen.facts, Cert.Pre_finite_inputs.Gen.facts,
  frame_k, Cert.KernelIdeal.H.frame_ki, Cert.ReferenceIdeal.RefValue.frame_ri, trivial, Cert.KernelIdeal.H.algebraic⟩

end Cert.Proof

end
